-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x3 : Shape := ⟨3, ![16, 4096, 3]⟩
abbrev S_ : Shape := ⟨0, ![]⟩

class Facts : Prop where
  bcast_S_S16x4096x3 : S_.BroadcastsInDim S16x4096x3 (![] : Fin 0 → Fin S16x4096x3.rank)
  reducesTo_S16x4096x3_S_d0_1_2 : S16x4096x3.ReducesTo [0, 1, 2] S_
  h_S_ : 0 < S_.numel

variable [Facts]

def fn {F : FTy → Type} [FloatOps F] (main_arg0 : FVec F S16x4096x3 .f32) (main_arg1 : FVec F S16x4096x3 .f32) : IVec S_ 1 :=
  let main_v0 : FVec F S16x4096x3 .f32 := Host.absf main_arg0
  let main_cst : FVec F S_ .f32 := constant S_ .f32 0x7F800000#32
  let main_v1 : FVec F S16x4096x3 .f32 := broadcastInDim S16x4096x3 ![] bcast_S_S16x4096x3 main_cst
  let main_v2 : IVec S16x4096x3 1 := cmpf .olt main_v0 main_v1
  let main_c : IVec S_ 1 := constantI S_ 1 1#1
  let main_v3 : IVec S_ 1 := (fun x v => Host.reduce IntOp.andi x v reducesTo_S16x4096x3_S_d0_1_2 h_S_) main_v2 main_c
  let main_v4 : FVec F S16x4096x3 .f32 := Host.absf main_arg1
  let main_cst_0 : FVec F S_ .f32 := constant S_ .f32 0x7F800000#32
  let main_v5 : FVec F S16x4096x3 .f32 := broadcastInDim S16x4096x3 ![] bcast_S_S16x4096x3 main_cst_0
  let main_v6 : IVec S16x4096x3 1 := cmpf .olt main_v4 main_v5
  let main_c_1 : IVec S_ 1 := constantI S_ 1 1#1
  let main_v7 : IVec S_ 1 := (fun x v => Host.reduce IntOp.andi x v reducesTo_S16x4096x3_S_d0_1_2 h_S_) main_v6 main_c_1
  let main_v8 : IVec S_ 1 := andi main_v3 main_v7
  main_v8
-- ==== Kernel.lean ====
abbrev S16x4096x3 : Shape := ⟨3, ![16, 4096, 3]⟩
abbrev S16x3x4096 : Shape := ⟨3, ![16, 3, 4096]⟩
abbrev S16x4096x1 : Shape := ⟨3, ![16, 4096, 1]⟩
abbrev S16x1x4096 : Shape := ⟨3, ![16, 1, 4096]⟩
abbrev S1x1024x3 : Shape := ⟨3, ![1, 1024, 3]⟩
abbrev S1x3x4096 : Shape := ⟨3, ![1, 3, 4096]⟩
abbrev S1x1024x1 : Shape := ⟨3, ![1, 1024, 1]⟩
abbrev S1x1x4096 : Shape := ⟨3, ![1, 1, 4096]⟩
abbrev S1024x3 : Shape := ⟨2, ![1024, 3]⟩
abbrev S3x4096 : Shape := ⟨2, ![3, 4096]⟩
abbrev S1024x1 : Shape := ⟨2, ![1024, 1]⟩
abbrev S1x4096 : Shape := ⟨2, ![1, 4096]⟩
abbrev S1024x4096 : Shape := ⟨2, ![1024, 4096]⟩
abbrev S1024 : Shape := ⟨1, ![1024]⟩
abbrev S4096 : Shape := ⟨1, ![4096]⟩
abbrev S16x4096 : Shape := ⟨2, ![16, 4096]⟩
abbrev S_ : Shape := ⟨0, ![]⟩

abbrev nBuf : Space → Nat
  | .hbm => 16
  | .vmem => 8
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x3x4096, .f32⟩
  | .hbm, ⟨3, _⟩ => ⟨S16x4096x1, .f32⟩
  | .hbm, ⟨4, _⟩ => ⟨S16x1x4096, .f32⟩
  | .hbm, ⟨5, _⟩ => ⟨S16x4096, .f32⟩
  | .hbm, ⟨6, _⟩ => ⟨S16x4096, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x3x4096, .f32⟩
  | .local _ .vmem, ⟨3, _⟩ => ⟨S1x3x4096, .f32⟩
  | .local _ .vmem, ⟨4, _⟩ => ⟨S1x1024x1, .f32⟩
  | .local _ .vmem, ⟨5, _⟩ => ⟨S1x1024x1, .f32⟩
  | .local _ .vmem, ⟨6, _⟩ => ⟨S1x1x4096, .f32⟩
  | .local _ .vmem, ⟨7, _⟩ => ⟨S1x1x4096, .f32⟩
  | _, _ => ⟨S16x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v31 : BitVec 1 := Scalar.cmpi .eq arg1 c0_i32
  let v32 : BitVec 32 := Scalar.extui v31
  let c0_i32_9 : BitVec 32 := 0#32
  let v33 : BitVec 1 := Scalar.cmpi .ne v32 c0_i32_9
  v33

def k0_cond2 (i : grid0.Coords) : BitVec 1 :=
  let arg1 : BitVec 32 := BitVec.ofNat 32 (i 1).val
  let c0_i32_10 : BitVec 32 := 0#32
  let v34 : BitVec 1 := Scalar.cmpi .ne arg1 c0_i32_10
  let v35 : BitVec 32 := Scalar.extui v34
  let c0_i32_11 : BitVec 32 := 0#32
  let v36 : BitVec 1 := Scalar.cmpi .ne v35 c0_i32_11
  v36

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S16x4096x3_S16x3x4096_0_2_1 : S16x4096x3.Transposes [0, 2, 1] S16x3x4096
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  slices_S1024x3_o0_0_S1024x1 : S1024x3.Slices ![0, 0] S1024x1
  slices_S1024x3_o0_1_S1024x1 : S1024x3.Slices ![0, 1] S1024x1
  slices_S1024x3_o0_2_S1024x1 : S1024x3.Slices ![0, 2] S1024x1
  slices_S3x4096_o0_0_S1x4096 : S3x4096.Slices ![0, 0] S1x4096
  slices_S3x4096_o1_0_S1x4096 : S3x4096.Slices ![1, 0] S1x4096
  slices_S3x4096_o2_0_S1x4096 : S3x4096.Slices ![2, 0] S1x4096
  broadcasts_S1024x1_S1024x4096 : S1024x1.Broadcasts S1024x4096
  broadcasts_S1x4096_S1024x4096 : S1x4096.Broadcasts S1024x4096
  reduces_S1024x4096_S1024 : S1024x4096.Reduces [1] S1024
  shapeCasts_S1024_S1024x1 : S1024.ShapeCasts S1024x1
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  reduces_S1024x4096_S4096 : S1024x4096.Reduces [0] S4096
  shapeCasts_S4096_S1x4096 : S4096.ShapeCasts S1x4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  shapeCasts_S16x4096x1_S16x4096 : S16x4096x1.ShapeCasts S16x4096
  shapeCasts_S16x1x4096_S16x4096 : S16x1x4096.ShapeCasts S16x4096
  reducesTo_S16x4096_S_d0_1 : S16x4096.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S16x4096x3.size a
  hwx0_0 : ∀ i : grid0.Coords, EltTy.bits .f32 = 32 ∨ (Rect.block (s := S16x4096x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4096.size a ≤ S16x3x4096.size a
  hwx0_1 : ∀ i : grid0.Coords, EltTy.bits .f32 = 32 ∨ (Rect.block (s := S16x3x4096) S1x3x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S16x4096x1.size a
  hwx0_2 : ∀ i : grid0.Coords, EltTy.bits .f32 = 32 ∨ (Rect.block (s := S16x4096x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S16x1x4096.size a
  hwx0_3 : ∀ i : grid0.Coords, EltTy.bits .f32 = 32 ∨ (Rect.block (s := S16x1x4096) S1x1x4096.size (cc0_transform_3 i) (hinb0_3 i)).WholeWords (EltTy.packing .f32)

variable [Facts₀]

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1024x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) | ⟨_ + 4, h⟩ => absurd h (Nat.not_lt.2 (Nat.le_add_left _ _))

class Facts : Prop extends Facts₀ where

variable [Facts]
-- ==== ReferenceIdeal.lean ====
abbrev S16x4096x3 : Shape := ⟨3, ![16, 4096, 3]⟩
abbrev S_ : Shape := ⟨0, ![]⟩
abbrev S16x4096 : Shape := ⟨2, ![16, 4096]⟩
abbrev S16x4096x4096 : Shape := ⟨3, ![16, 4096, 4096]⟩
abbrev S16x4096x1 : Shape := ⟨3, ![16, 4096, 1]⟩
abbrev S16x1x4096 : Shape := ⟨3, ![16, 1, 4096]⟩

abbrev nBuf : Space → Nat
  | .hbm => 31
  | .vmem => 0
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x4096x3, .f32⟩
  | .hbm, ⟨3, _⟩ => ⟨S_, .f32⟩
  | .hbm, ⟨4, _⟩ => ⟨S16x4096, .f32⟩
  | .hbm, ⟨5, _⟩ => ⟨S16x4096x3, .f32⟩
  | .hbm, ⟨6, _⟩ => ⟨S_, .f32⟩
  | .hbm, ⟨7, _⟩ => ⟨S16x4096, .f32⟩
  | .hbm, ⟨8, _⟩ => ⟨S16x4096x4096, .f32⟩
  | .hbm, ⟨9, _⟩ => ⟨S16x4096x1, .f32⟩
  | .hbm, ⟨10, _⟩ => ⟨S16x1x4096, .f32⟩
  | .hbm, ⟨11, _⟩ => ⟨S16x4096x4096, .f32⟩
  | .hbm, ⟨12, _⟩ => ⟨S16x4096x4096, .f32⟩
  | .hbm, ⟨13, _⟩ => ⟨S16x4096x4096, .f32⟩
  | .hbm, ⟨14, _⟩ => ⟨S_, .f32⟩
  | .hbm, ⟨15, _⟩ => ⟨S16x4096x4096, .f32⟩
  | .hbm, ⟨16, _⟩ => ⟨S16x4096x4096, .f32⟩
  | .hbm, ⟨17, _⟩ => ⟨S16x4096x4096, .f32⟩
  | .hbm, ⟨18, _⟩ => ⟨S_, .f32⟩
  | .hbm, ⟨19, _⟩ => ⟨S16x4096, .f32⟩
  | .hbm, ⟨20, _⟩ => ⟨S_, .f32⟩
  | .hbm, ⟨21, _⟩ => ⟨S16x4096, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S16x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  bcast_S16x4096_S16x1x4096_0_2 : S16x4096.BroadcastsInDim S16x1x4096 (![0, 2] : Fin 2 → Fin S16x1x4096.rank)
  bcast_S16x4096x1_S16x4096x4096_0_1_2 : S16x4096x1.BroadcastsInDim S16x4096x4096 (![0, 1, 2] : Fin 3 → Fin S16x4096x4096.rank)
  bcast_S16x1x4096_S16x4096x4096_0_1_2 : S16x1x4096.BroadcastsInDim S16x4096x4096 (![0, 1, 2] : Fin 3 → Fin S16x4096x4096.rank)
  bcast_S_S16x4096x4096 : S_.BroadcastsInDim S16x4096x4096 (![] : Fin 0 → Fin S16x4096x4096.rank)
  reducesTo_S16x4096x4096_S16x4096_d2 : S16x4096x4096.ReducesTo [2] S16x4096
  reducesTo_S16x4096x4096_S16x4096_d1 : S16x4096x4096.ReducesTo [1] S16x4096
  reducesTo_S16x4096_S_d0_1 : S16x4096.ReducesTo [0, 1] S_
  dot_S16x4096x3_S16x4096x3_S16x4096x4096_2_2_1_1_0_0_wf : DotDims.WF S16x4096x3 S16x4096x3 S16x4096x4096 [2] [2] [1] [1] [0] [0]

variable [Facts₀]

def dot_S16x4096x3_S16x4096x3_S16x4096x4096_2_2_1_1_0_0 : DotDims S16x4096x3 S16x4096x3 S16x4096x4096 where
  lhsContracting := [2]
  rhsContracting := [2]
  lhsNonContracting := [1]
  rhsNonContracting := [1]
  lhsBatch := [0]
  rhsBatch := [0]
  wf := dot_S16x4096x3_S16x4096x3_S16x4096x4096_2_2_1_1_0_0_wf

class Facts : Prop extends Facts₀ where

variable [Facts]
-- ==== Proof.BodyBits.lean ====
/-
  The frame of `Kernel`: the kernel body run at every grid point, and @main run around the region.

  The grid is 16 batches × 4 tiles of 1024 points of the first cloud; a grid point `t` has tile index `t % 4`. At a
  point the body reads its tile `x0 : [1, 1024, 3]` of the first cloud and the whole transposed batch
  `x1 : [1, 3, 4096]` of the second, forms the 1024 × 4096 table of squared distances, and stores
    • into the first output's buffer the row minima (one per point of the tile), written back at every point;
    • into the second output's buffer the column minima — at the batch's first tile as they are, at a later tile
      the minimum of what the buffer held and this tile's column minima. That buffer is written back after the
      batch's last tile only, so between tiles of one batch it carries the running minimum (`accAt`).
  Which of the two stores runs is decided by the tile index alone, so the body has two control cases.
-/
import proofs.«179393_j32839319945864_2_alg».proof.Proof.Gen.Kernel.Frame
import proofs.«179393_j32839319945864_2_alg».proof.Proof.Gen.Kernel.Skeleton
import Idealize.ShloMosaic.Lib.Pipeline.Frame
import Idealize.ShloMosaic.Lib.Pipeline.FrameSuffix
import Idealize.ShloMosaic.Lib.Pipeline.Value
import Idealize.ShloMosaic.Lib.Exec.Geometry

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets of a rank-3 whole-buffer access. -/
theorem hz3 : (![0, 0, 0] : Fin 3 → Nat) = fun _ => 0 := by
  funext a; match a with | ⟨0, _⟩ => rfl | ⟨1, _⟩ => rfl | ⟨2, _⟩ => rfl

/-! ## The two branch conditions over the grid -/

/-- The first branch (store the column minima as they are) is taken at the first tile of a batch, -/
theorem cond1_iff : ∀ t : Fin cfg0.N, k0_cond1 (grid0.coords t) = 1#1 ↔ t.val % 4 = 0 :=
  (by decide +kernel : ∀ t : Fin grid0.N, k0_cond1 (grid0.coords t) = 1#1 ↔ t.val % 4 = 0)
/-- the second (fold them into the running minimum) at every other tile. -/
theorem cond2_iff : ∀ t : Fin cfg0.N, k0_cond2 (grid0.coords t) = 1#1 ↔ ¬ t.val % 4 = 0 :=
  (by decide +kernel : ∀ t : Fin grid0.N, k0_cond2 (grid0.coords t) = 1#1 ↔ ¬ t.val % 4 = 0)

/-- One of the two branches stores into the second output's buffer at every point: the window is idle nowhere. -/
theorem live3 (i : grid0.Coords) : cfg0.idle 3 i = false := by
  show (!(k0_cond1 i == 1#1) && !(k0_cond2 i == 1#1)) = false
  have h : (i 1).val < 4 := (i 1).isLt
  unfold k0_cond1 k0_cond2
  rcases (by omega : (i 1).val = 0 ∨ (i 1).val = 1 ∨ (i 1).val = 2 ∨ (i 1).val = 3) with h | h | h | h <;>
    rw [h] <;> decide

/-! ## The body's triple, one per control case -/

/-- Each window's current staging memref at point `t`, as the pipeline passes it, and its wholeness. -/
abbrev ms0 (t : Fin cfg0.N) : Memref sig .tc .vmem S1x1024x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x3x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x4096 .f32 := win0_3.stage (cfg0.slots t 3)
abbrev hs3 (t : Fin cfg0.N) : (ms3 t).IsWhole := hstage0_3 ((cfg0.slots t 3).cast nbuf0_3)

/-- What one whole-buffer store of `w` over any contents reads back as: `w`. -/
theorem read_store_whole {S : Shape} {e : EltTy} (v : View sig .tc .vmem S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f _ (fun y => ⟨_, List.mem_singleton_self _, View.mem_set_unit_zero h inb y⟩)).trans
    (View.canon_unit_zero h inb w)

set_option maxHeartbeats 2000000 in
/-- FIRST TILE OF A BATCH. On whole staging memrefs — the inputs' at `x0`, `x1`, the outputs' at anything — the body
    runs to the continuation holding the inputs' as they were, the first output's at the row minima `k0_pay2 x0 x1`
    and the second's at the column minima `k0_pay4 x0 x1`. -/
theorem sound_first (c : Dev nD) (E : Set ℕ) (i : grid0.Coords) (h1 : k0_cond1 i = 1#1) (h2 : ¬ k0_cond2 i = 1#1)
    (arg2 : Memref sig .tc .vmem S1x1024x3 .f32) (harg2 : arg2.IsWhole) (arg3 : Memref sig .tc .vmem S1x3x4096 .f32) (harg3 : arg3.IsWhole)
    (arg4 : Memref sig .tc .vmem S1x1024x1 .f32) (harg4 : arg4.IsWhole) (arg5 : Memref sig .tc .vmem S1x1x4096 .f32) (harg5 : arg5.IsWhole)
    (x0 : Vec F S1x1024x3 .f32) (x1 : Vec F S1x3x4096 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k0_pay2 x0 x1) ∗ owns (c : Thread nD τ) arg5 fullShare (k0_pay4 x0 x1)) -∗ K ⟨⟩))
      ⊢ wp frame (wpE (defs₀ (F := F)) Variants.none c none) E (cc0__chamfer_kernel i arg2 harg2 arg3 harg3 arg4 harg4 arg5 harg5) K := by
  simp only [cc0__chamfer_kernel_eq_skeleton]; unfold cc0__chamfer_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [read_store_whole _ _ hz3]
    simp only [View.readAt_eq_ld, View.ld_unit_zero (S := S1x1024x3) hz3, View.ld_unit_zero (S := S1x3x4096) hz3, View.ld_unit_zero (S := S1x1x4096) hz3]
  iexists _; isplitr
  swap; · iexact H3
  ipureintro
  rw [read_store_whole _ _ hz3]
  simp only [View.readAt_eq_ld, View.ld_unit_zero (S := S1x1024x3) hz3, View.ld_unit_zero (S := S1x3x4096) hz3, View.ld_unit_zero (S := S1x1x4096) hz3]

set_option maxHeartbeats 2000000 in
/-- A LATER TILE. The same, the second output's memref held at `acc` (the running column minima) going in and at
    `k0_pay5 x0 x1 acc` — the minimum of `acc` and this tile's column minima — coming out. -/
theorem sound_later (c : Dev nD) (E : Set ℕ) (i : grid0.Coords) (h1 : ¬ k0_cond1 i = 1#1) (h2 : k0_cond2 i = 1#1)
    (arg2 : Memref sig .tc .vmem S1x1024x3 .f32) (harg2 : arg2.IsWhole) (arg3 : Memref sig .tc .vmem S1x3x4096 .f32) (harg3 : arg3.IsWhole)
    (arg4 : Memref sig .tc .vmem S1x1024x1 .f32) (harg4 : arg4.IsWhole) (arg5 : Memref sig .tc .vmem S1x1x4096 .f32) (harg5 : arg5.IsWhole)
    (x0 : Vec F S1x1024x3 .f32) (x1 : Vec F S1x3x4096 .f32) (acc : Vec F S1x1x4096 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare acc
        ∗ (iprop(owns (c : Thread nD τ) arg2 fullShare x0 ∗ owns (c : Thread nD τ) arg3 fullShare x1
            ∗ owns (c : Thread nD τ) arg4 fullShare (k0_pay2 x0 x1) ∗ owns (c : Thread nD τ) arg5 fullShare (k0_pay5 x0 x1 acc)) -∗ K ⟨⟩))
      ⊢ wp frame (wpE (defs₀ (F := F)) Variants.none c none) E (cc0__chamfer_kernel i arg2 harg2 arg3 harg3 arg4 harg4 arg5 harg5) K := by
  simp only [cc0__chamfer_kernel_eq_skeleton]; unfold cc0__chamfer_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [read_store_whole _ _ hz3]
    simp only [View.readAt_eq_ld, View.ld_unit_zero (S := S1x1024x3) hz3, View.ld_unit_zero (S := S1x3x4096) hz3, View.ld_unit_zero (S := S1x1x4096) hz3]
  iexists _; isplitr
  swap; · iexact H3
  ipureintro
  rw [read_store_whole _ _ hz3]
  simp only [View.readAt_eq_ld, View.ld_unit_zero (S := S1x1024x3) hz3, View.ld_unit_zero (S := S1x3x4096) hz3, View.ld_unit_zero (S := S1x1x4096) hz3]

/-! ## What the second output's buffer holds after each point -/

/-- THE RUNNING COLUMN MINIMA after the body at position `n`: at a batch's first tile that tile's column minima;
    at a later tile the minimum of what the point before left and this tile's. -/
def accAt (c : Dev nD) : (n : ℕ) → n < cfg0.N → Vec F S1x1x4096 .f32
  | 0, hn => k0_pay4 (iblk m c 0 ⟨0, hn⟩) (iblk m c 1 ⟨0, hn⟩)
  | n + 1, hn =>
    if (n + 1) % 4 = 0 then k0_pay4 (iblk m c 0 ⟨n + 1, hn⟩) (iblk m c 1 ⟨n + 1, hn⟩)
    else k0_pay5 (iblk m c 0 ⟨n + 1, hn⟩) (iblk m c 1 ⟨n + 1, hn⟩) (accAt c n (Nat.lt_of_succ_lt hn))

theorem accAt_first (c : Dev nD) (t : Fin cfg0.N) (h0 : t.val % 4 = 0) :
    accAt m c t.val t.isLt = k0_pay4 (iblk m c 0 t) (iblk m c 1 t) := by
  obtain ⟨n, hn⟩ := t
  cases n with
  | zero => rfl
  | succ n => exact (if_pos h0).trans rfl

theorem accAt_later (c : Dev nD) (t : Fin cfg0.N) (h0 : ¬ t.val % 4 = 0) :
    accAt m c t.val t.isLt = k0_pay5 (iblk m c 0 t) (iblk m c 1 t)
      (accAt m c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The pipeline's proof data -/

/-- The proof data of the one pipeline on core `c`: the arrays as the region finds them; after the body at point
    `t` each input's buffer at its block, the first output's at the tile's row minima, the second's at the running
    column minima; the invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay2 (iblk m c 0 t) (iblk m c 1 t)
    | ⟨3, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = k0_pay2 (iblk m c 0 t) (iblk m c 1 t) := by dsimp only [dats]
theorem after3 (c : Dev nD) (t : Fin cfg0.N) : (dats m 0 c).after 3 t = accAt m c t.val t.isLt := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- At a later tile the second output's current staging buffer holds what the body left at the point before: that
    point is not a batch's last tile, so the buffer was not written back in between, and the window is live and uncut. -/
theorem before3_later (c : Dev nD) (t : Fin cfg0.N) (h0 : ¬ t.val % 4 = 0) (d) :
    (dats m 0 c).before 3 t d = accAt m c (t.val - 1) (Nat.lt_of_le_of_lt (Nat.sub_le _ _) t.isLt) := by
  rw [Dat.before_out_kept _ 3 rfl t (by omega) (Bool.eq_false_iff.mpr fun h => by have := (flush0_3 _).mp h; dsimp only at this; omega)
    (fun i => live3 i) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 1600000 in
/-- The body at any point: the inputs' memrefs hold their blocks; the tile index says which case the point is in; at a
    later tile the second output's memref holds the running minima the point before left; so that case's triple applies.
    The invariant and the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    show (dats m 0 c).leavesExact 0 t = owns (c : Thread nD τ) (ms0 t) fullShare ((dats m 0 c).after 0 t) from rfl,
    show (dats m 0 c).leavesExact 1 t = owns (c : Thread nD τ) (ms1 t) fullShare ((dats m 0 c).after 1 t) from rfl,
    show (dats m 0 c).leavesExact 2 t = owns (c : Thread nD τ) (ms2 t) fullShare ((dats m 0 c).after 2 t) from rfl,
    show (dats m 0 c).leavesExact 3 t = owns (c : Thread nD τ) (ms3 t) fullShare ((dats m 0 c).after 3 t) from by
      unfold Dat.leavesExact; rw [live3 (grid0.coords t)],
    after0, after1, after2, after3]
  by_cases h0 : t.val % 4 = 0
  · rw [accAt_first m c t h0]
    iintro ⟨HΦ, Ho, ⟨%d0, H0⟩, ⟨%d1, H1⟩, ⟨%d2, H2⟩, ⟨%d3, H3⟩⟩
    iapply (sound_first c Set.univ (grid0.coords t) ((cond1_iff t).mpr h0) (fun h => ((cond2_iff t).mp h) h0)
      _ _ _ _ _ _ _ _ (iblk m c 0 t) (iblk m c 1 t) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [accAt_later m c t h0]
    simp only [before3_later m c t h0]
    iintro ⟨HΦ, Ho, ⟨%d0, H0⟩, ⟨%d1, H1⟩, ⟨%d2, H2⟩, ⟨%d3, H3⟩⟩
    iapply (sound_later c Set.univ (grid0.coords t) (fun h => h0 ((cond1_iff t).mp h)) ((cond2_iff t).mpr h0)
      _ _ _ _ _ _ _ _ (iblk m c 0 t) (iblk m c 1 t) _ _)
    isplitl [H0]; · iexact H0
    isplitl [H1]; · iexact H1
    isplitl [H2]; · iexists _; iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the write-backs of the proof data leave, and every other unscoped buffer as
    the host lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the program runs to the end, faults nowhere, and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.BodyIdeal.lean ====
/-
  The frame of `KernelIdeal`: the kernel body run at every grid point, and @main run around the region.

  The grid is 16 batches × 4 tiles of 1024 points of the first cloud; a grid point `t` has tile index `t % 4`. At a
  point the body reads its tile `x0 : [1, 1024, 3]` of the first cloud and the whole transposed batch
  `x1 : [1, 3, 4096]` of the second, forms the 1024 × 4096 table of squared distances, and stores
    • into the first output's buffer the row minima (one per point of the tile), written back at every point;
    • into the second output's buffer the column minima — at the batch's first tile as they are, at a later tile
      the minimum of what the buffer held and this tile's column minima. That buffer is written back after the
      batch's last tile only, so between tiles of one batch it carries the running minimum (`accAt`).
  Which of the two stores runs is decided by the tile index alone, so the body has two control cases.
-/
import proofs.«179393_j32839319945864_2_alg».proof.Proof.Gen.KernelIdeal.Frame
import proofs.«179393_j32839319945864_2_alg».proof.Proof.Gen.KernelIdeal.Skeleton
import Idealize.ShloMosaic.Lib.Pipeline.Frame
import Idealize.ShloMosaic.Lib.Pipeline.FrameSuffix
import Idealize.ShloMosaic.Lib.Pipeline.Value
import Idealize.ShloMosaic.Lib.Exec.Geometry

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets of a rank-3 whole-buffer access. -/
theorem hz3 : (![0, 0, 0] : Fin 3 → Nat) = fun _ => 0 := by
  funext a; match a with | ⟨0, _⟩ => rfl | ⟨1, _⟩ => rfl | ⟨2, _⟩ => rfl

/-! ## The two branch conditions over the grid -/

/-- The first branch (store the column minima as they are) is taken at the first tile of a batch, -/
theorem cond1_iff : ∀ t : Fin cfg0.N, k0_cond1 (grid0.coords t) = 1#1 ↔ t.val % 4 = 0 :=
  (by decide +kernel : ∀ t : Fin grid0.N, k0_cond1 (grid0.coords t) = 1#1 ↔ t.val % 4 = 0)
/-- the second (fold them into the running minimum) at every other tile. -/
theorem cond2_iff : ∀ t : Fin cfg0.N, k0_cond2 (grid0.coords t) = 1#1 ↔ ¬ t.val % 4 = 0 :=
  (by decide +kernel : ∀ t : Fin grid0.N, k0_cond2 (grid0.coords t) = 1#1 ↔ ¬ t.val % 4 = 0)

/-- One of the two branches stores into the second output's buffer at every point: the window is idle nowhere. -/
theorem live3 (i : grid0.Coords) : cfg0.idle 3 i = false := by
  show (!(k0_cond1 i == 1#1) && !(k0_cond2 i == 1#1)) = false
  have h : (i 1).val < 4 := (i 1).isLt
  unfold k0_cond1 k0_cond2
  rcases (by omega : (i 1).val = 0 ∨ (i 1).val = 1 ∨ (i 1).val = 2 ∨ (i 1).val = 3) with h | h | h | h <;>
    rw [h] <;> decide

/-! ## The body's triple, one per control case -/

/-- Each window's current staging memref at point `t`, as the pipeline passes it, and its wholeness. -/
abbrev ms0 (t : Fin cfg0.N) : Memref sig .tc .vmem S1x1024x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x3x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x4096 .f32 := win0_3.stage (cfg0.slots t 3)
abbrev hs3 (t : Fin cfg0.N) : (ms3 t).IsWhole := hstage0_3 ((cfg0.slots t 3).cast nbuf0_3)

/-- What one whole-buffer store of `w` over any contents reads back as: `w`. -/
theorem read_store_whole {S : Shape} {e : EltTy} (v : View sig .tc .vmem S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f _ (fun y => ⟨_, List.mem_singleton_self _, View.mem_set_unit_zero h inb y⟩)).trans
    (View.canon_unit_zero h inb w)

set_option maxHeartbeats 2000000 in
/-- FIRST TILE OF A BATCH. On whole staging memrefs — the inputs' at `x0`, `x1`, the outputs' at anything — the body
    runs to the continuation holding the inputs' as they were, the first output's at the row minima `k0_pay2 x0 x1`
    and the second's at the column minima `k0_pay4 x0 x1`. -/
theorem sound_first (c : Dev nD) (E : Set ℕ) (i : grid0.Coords) (h1 : k0_cond1 i = 1#1) (h2 : ¬ k0_cond2 i = 1#1)
    (arg2 : Memref sig .tc .vmem S1x1024x3 .f32) (harg2 : arg2.IsWhole) (arg3 : Memref sig .tc .vmem S1x3x4096 .f32) (harg3 : arg3.IsWhole)
    (arg4 : Memref sig .tc .vmem S1x1024x1 .f32) (harg4 : arg4.IsWhole) (arg5 : Memref sig .tc .vmem S1x1x4096 .f32) (harg5 : arg5.IsWhole)
    (x0 : Vec F S1x1024x3 .f32) (x1 : Vec F S1x3x4096 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k0_pay2 x0 x1) ∗ owns (c : Thread nD τ) arg5 fullShare (k0_pay4 x0 x1)) -∗ K ⟨⟩))
      ⊢ wp frame (wpE (defs₀ (F := F)) Variants.none c none) E (cc0__chamfer_kernel i arg2 harg2 arg3 harg3 arg4 harg4 arg5 harg5) K := by
  simp only [cc0__chamfer_kernel_eq_skeleton]; unfold cc0__chamfer_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [read_store_whole _ _ hz3]
    simp only [View.readAt_eq_ld, View.ld_unit_zero (S := S1x1024x3) hz3, View.ld_unit_zero (S := S1x3x4096) hz3, View.ld_unit_zero (S := S1x1x4096) hz3]
  iexists _; isplitr
  swap; · iexact H3
  ipureintro
  rw [read_store_whole _ _ hz3]
  simp only [View.readAt_eq_ld, View.ld_unit_zero (S := S1x1024x3) hz3, View.ld_unit_zero (S := S1x3x4096) hz3, View.ld_unit_zero (S := S1x1x4096) hz3]

set_option maxHeartbeats 2000000 in
/-- A LATER TILE. The same, the second output's memref held at `acc` (the running column minima) going in and at
    `k0_pay5 x0 x1 acc` — the minimum of `acc` and this tile's column minima — coming out. -/
theorem sound_later (c : Dev nD) (E : Set ℕ) (i : grid0.Coords) (h1 : ¬ k0_cond1 i = 1#1) (h2 : k0_cond2 i = 1#1)
    (arg2 : Memref sig .tc .vmem S1x1024x3 .f32) (harg2 : arg2.IsWhole) (arg3 : Memref sig .tc .vmem S1x3x4096 .f32) (harg3 : arg3.IsWhole)
    (arg4 : Memref sig .tc .vmem S1x1024x1 .f32) (harg4 : arg4.IsWhole) (arg5 : Memref sig .tc .vmem S1x1x4096 .f32) (harg5 : arg5.IsWhole)
    (x0 : Vec F S1x1024x3 .f32) (x1 : Vec F S1x3x4096 .f32) (acc : Vec F S1x1x4096 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare acc
        ∗ (iprop(owns (c : Thread nD τ) arg2 fullShare x0 ∗ owns (c : Thread nD τ) arg3 fullShare x1
            ∗ owns (c : Thread nD τ) arg4 fullShare (k0_pay2 x0 x1) ∗ owns (c : Thread nD τ) arg5 fullShare (k0_pay5 x0 x1 acc)) -∗ K ⟨⟩))
      ⊢ wp frame (wpE (defs₀ (F := F)) Variants.none c none) E (cc0__chamfer_kernel i arg2 harg2 arg3 harg3 arg4 harg4 arg5 harg5) K := by
  simp only [cc0__chamfer_kernel_eq_skeleton]; unfold cc0__chamfer_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [read_store_whole _ _ hz3]
    simp only [View.readAt_eq_ld, View.ld_unit_zero (S := S1x1024x3) hz3, View.ld_unit_zero (S := S1x3x4096) hz3, View.ld_unit_zero (S := S1x1x4096) hz3]
  iexists _; isplitr
  swap; · iexact H3
  ipureintro
  rw [read_store_whole _ _ hz3]
  simp only [View.readAt_eq_ld, View.ld_unit_zero (S := S1x1024x3) hz3, View.ld_unit_zero (S := S1x3x4096) hz3, View.ld_unit_zero (S := S1x1x4096) hz3]

/-! ## What the second output's buffer holds after each point -/

/-- THE RUNNING COLUMN MINIMA after the body at position `n`: at a batch's first tile that tile's column minima;
    at a later tile the minimum of what the point before left and this tile's. -/
def accAt (c : Dev nD) : (n : ℕ) → n < cfg0.N → Vec F S1x1x4096 .f32
  | 0, hn => k0_pay4 (iblk m c 0 ⟨0, hn⟩) (iblk m c 1 ⟨0, hn⟩)
  | n + 1, hn =>
    if (n + 1) % 4 = 0 then k0_pay4 (iblk m c 0 ⟨n + 1, hn⟩) (iblk m c 1 ⟨n + 1, hn⟩)
    else k0_pay5 (iblk m c 0 ⟨n + 1, hn⟩) (iblk m c 1 ⟨n + 1, hn⟩) (accAt c n (Nat.lt_of_succ_lt hn))

theorem accAt_first (c : Dev nD) (t : Fin cfg0.N) (h0 : t.val % 4 = 0) :
    accAt m c t.val t.isLt = k0_pay4 (iblk m c 0 t) (iblk m c 1 t) := by
  obtain ⟨n, hn⟩ := t
  cases n with
  | zero => rfl
  | succ n => exact (if_pos h0).trans rfl

theorem accAt_later (c : Dev nD) (t : Fin cfg0.N) (h0 : ¬ t.val % 4 = 0) :
    accAt m c t.val t.isLt = k0_pay5 (iblk m c 0 t) (iblk m c 1 t)
      (accAt m c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The pipeline's proof data -/

/-- The proof data of the one pipeline on core `c`: the arrays as the region finds them; after the body at point
    `t` each input's buffer at its block, the first output's at the tile's row minima, the second's at the running
    column minima; the invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay2 (iblk m c 0 t) (iblk m c 1 t)
    | ⟨3, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = k0_pay2 (iblk m c 0 t) (iblk m c 1 t) := by dsimp only [dats]
theorem after3 (c : Dev nD) (t : Fin cfg0.N) : (dats m 0 c).after 3 t = accAt m c t.val t.isLt := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- At a later tile the second output's current staging buffer holds what the body left at the point before: that
    point is not a batch's last tile, so the buffer was not written back in between, and the window is live and uncut. -/
theorem before3_later (c : Dev nD) (t : Fin cfg0.N) (h0 : ¬ t.val % 4 = 0) (d) :
    (dats m 0 c).before 3 t d = accAt m c (t.val - 1) (Nat.lt_of_le_of_lt (Nat.sub_le _ _) t.isLt) := by
  rw [Dat.before_out_kept _ 3 rfl t (by omega) (Bool.eq_false_iff.mpr fun h => by have := (flush0_3 _).mp h; dsimp only at this; omega)
    (fun i => live3 i) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 1600000 in
/-- The body at any point: the inputs' memrefs hold their blocks; the tile index says which case the point is in; at a
    later tile the second output's memref holds the running minima the point before left; so that case's triple applies.
    The invariant and the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    show (dats m 0 c).leavesExact 0 t = owns (c : Thread nD τ) (ms0 t) fullShare ((dats m 0 c).after 0 t) from rfl,
    show (dats m 0 c).leavesExact 1 t = owns (c : Thread nD τ) (ms1 t) fullShare ((dats m 0 c).after 1 t) from rfl,
    show (dats m 0 c).leavesExact 2 t = owns (c : Thread nD τ) (ms2 t) fullShare ((dats m 0 c).after 2 t) from rfl,
    show (dats m 0 c).leavesExact 3 t = owns (c : Thread nD τ) (ms3 t) fullShare ((dats m 0 c).after 3 t) from by
      unfold Dat.leavesExact; rw [live3 (grid0.coords t)],
    after0, after1, after2, after3]
  by_cases h0 : t.val % 4 = 0
  · rw [accAt_first m c t h0]
    iintro ⟨HΦ, Ho, ⟨%d0, H0⟩, ⟨%d1, H1⟩, ⟨%d2, H2⟩, ⟨%d3, H3⟩⟩
    iapply (sound_first c Set.univ (grid0.coords t) ((cond1_iff t).mpr h0) (fun h => ((cond2_iff t).mp h) h0)
      _ _ _ _ _ _ _ _ (iblk m c 0 t) (iblk m c 1 t) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [accAt_later m c t h0]
    simp only [before3_later m c t h0]
    iintro ⟨HΦ, Ho, ⟨%d0, H0⟩, ⟨%d1, H1⟩, ⟨%d2, H2⟩, ⟨%d3, H3⟩⟩
    iapply (sound_later c Set.univ (grid0.coords t) (fun h => h0 ((cond1_iff t).mp h)) ((cond2_iff t).mpr h0)
      _ _ _ _ _ _ _ _ (iblk m c 0 t) (iblk m c 1 t) _ _)
    isplitl [H0]; · iexact H0
    isplitl [H1]; · iexact H1
    isplitl [H2]; · iexists _; iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the write-backs of the proof data leave, and every other unscoped buffer as
    the host lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the program runs to the end, faults nowhere, and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.Spec.lean ====
/-
  The quantity both programs compute, stated once over the two point clouds `P`, `Q : [16, 4096, 3]` read as
  extended reals: for each batch `b` the squared Euclidean distance between point `n` of `P` and point `m` of `Q`,
  its minimum over `m` (for every `n`) and over `n` (for every `m`), and the sum of the two means of those minima.
  The squared distance is written twice: as the sum of the three squared coordinate differences, and expanded as
  `|p|² + |q|² − 2 p·q`; on finite coordinates the two agree (Proof/Algebra.lean).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The shape of a point cloud: 16 batches of 4096 points of 3 coordinates. -/
abbrev SPts : Shape := ⟨3, ![16, 4096, 3]⟩
/-- The shape of the minima: one per batch and point. -/
abbrev SMin : Shape := ⟨2, ![16, 4096]⟩
/-- The scalar shape. -/
abbrev SOne : Shape := ⟨0, ![]⟩

/-- The value the minima start from: the f32 word of +∞. -/
abbrev inf32 : EReal := Ideal.ofBits .f32 0x7F800000#32

/-- Squared distance as the sum of the three squared coordinate differences, added left to right. -/
def sqDiff (P Q : SPts.Idx → EReal) (b : Fin 16) (n m : Fin 4096) : EReal :=
  ((P (ix3 b n 0) - Q (ix3 b m 0)) * (P (ix3 b n 0) - Q (ix3 b m 0))
      + (P (ix3 b n 1) - Q (ix3 b m 1)) * (P (ix3 b n 1) - Q (ix3 b m 1)))
    + (P (ix3 b n 2) - Q (ix3 b m 2)) * (P (ix3 b n 2) - Q (ix3 b m 2))

/-- Squared distance expanded: `(0 + Σ_c p_c²) + (0 + Σ_c q_c²) − 2 · Σ_c p_c q_c`, the constants as f32 words. -/
def sqExpand (P Q : SPts.Idx → EReal) (b : Fin 16) (n m : Fin 4096) : EReal :=
  ((Ideal.ofBits .f32 0x00000000#32 + ∑ c : Fin 3, P (ix3 b n c) * P (ix3 b n c))
      + (Ideal.ofBits .f32 0x00000000#32 + ∑ c : Fin 3, Q (ix3 b m c) * Q (ix3 b m c)))
    - Ideal.ofBits .f32 0x40000000#32 * ∑ c : Fin 3, P (ix3 b n c) * Q (ix3 b m c)

/-- For batch `j 0` and point `j 1` of the first cloud: the least distance to a point of the second. -/
def rowMin (d : Fin 16 → Fin 4096 → Fin 4096 → EReal) (j : SMin.Idx) : EReal :=
  (Finset.univ : Finset (Fin 4096)).fold min inf32 (fun m => d (j 0) (j 1) m)

/-- For batch `j 0` and point `j 1` of the second cloud: the least distance to a point of the first. -/
def colMin (d : Fin 16 → Fin 4096 → Fin 4096 → EReal) (j : SMin.Idx) : EReal :=
  (Finset.univ : Finset (Fin 4096)).fold min inf32 (fun n => d (j 0) n (j 1))

/-- The two means added: each array of minima summed over both axes from zero and divided by 65536. -/
def means (h : SMin.ReducesTo [0, 1] SOne) (h0 : 0 < SOne.numel) (D1 D2 : FVec Ideal SMin .f32) : FVec Ideal SOne .f32 :=
  addf (F := Ideal)
    (Host.divf (F := Ideal) (Host.reduceAdd (F := Ideal) D1 (constant (F := Ideal) SOne .f32 0x00000000#32) h h0)
      (constant (F := Ideal) SOne .f32 0x47800000#32))
    (Host.divf (F := Ideal) (Host.reduceAdd (F := Ideal) D2 (constant (F := Ideal) SOne .f32 0x00000000#32) h h0)
      (constant (F := Ideal) SOne .f32 0x47800000#32))

/-- The result as a function of the squared-distance table. -/
def result (h : SMin.ReducesTo [0, 1] SOne) (h0 : 0 < SOne.numel) (d : Fin 16 → Fin 4096 → Fin 4096 → EReal) :
    FVec Ideal SOne .f32 :=
  means h h0 (rowMin d) (colMin d)

end Cert.Spec

end
-- ==== Proof.Arrays.lean ====
/-
  What the two output arrays hold after the region, and what @main's lines after it compute from them.

  A grid point `t` is tile `t % 4` of batch `t / 4`. The first output `[16, 4096, 1]` is written back at every point:
  point `t` writes rows `1024·(t % 4) … +1023` of batch `t / 4`, and these 64 blocks tile the array. The second output
  `[16, 1, 4096]` is written back only after a batch's last tile (`t % 4 = 3`): that point writes the whole row of
  batch `t / 4`, and the 16 such blocks tile the array. So if each written block is the corresponding block of one
  whole-array function, the array ends holding that function. The lines after the region drop the unit axis of each
  array, sum each over both axes, divide by 65536 and add.

  The two facts about the body's arithmetic this needs — a tile's row minima are the row minima of the squared
  distances, and the running column minima after a batch's last tile are the column minima over all 4096 rows — are
  taken here as hypotheses (`RowTile`, `ColLast`) and proved in Proof/Tiles.lean.
-/
import proofs.«179393_j32839319945864_2_alg».proof.Proof.BodyIdeal
import proofs.«179393_j32839319945864_2_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Arrays

open Cert.KernelIdeal Cert.KernelIdeal.Gen Cert.KernelIdeal.Body Cert.Spec
open Idealize.ShloMosaic Idealize.ShloMosaic.TcCoe Idealize.ShloMosaic.ValueIdx Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-- The first point cloud as launched, -/
abbrev P (c : Dev nD) : SPts.Idx → EReal := m ((c : Thread nD τ).loc main_arg0)
/-- and the second. -/
abbrev Q (c : Dev nD) : SPts.Idx → EReal := m ((c : Thread nD τ).loc main_arg1)

theorem batch_lt (t : Fin cfg0.N) : t.val / 4 < 16 := by
  have h : t.val < 64 := lt_of_lt_of_eq t.isLt (show cfg0.N = 64 from N_0); omega
theorem row_lt (t : Fin cfg0.N) (r : Fin 1024) : 1024 * (t.val % 4) + r.val < 4096 := by
  have := r.isLt; omega

/-- The first output as one function of the clouds: at `(b, n, 0)` the least squared distance from point `n` of the
    first cloud to a point of the second. -/
def G2 (p q : SPts.Idx → EReal) : S16x4096x1.Idx → EReal := fun i =>
  rowMin (sqDiff p q) (ix2 (⟨(i 0).val, (i 0).isLt⟩ : Fin 16) (⟨(i 1).val, (i 1).isLt⟩ : Fin 4096))
/-- The second: at `(b, 0, m)` the least squared distance from point `m` of the second cloud to a point of the first. -/
def G3 (p q : SPts.Idx → EReal) : S16x1x4096.Idx → EReal := fun i =>
  colMin (sqDiff p q) (ix2 (⟨(i 0).val, (i 0).isLt⟩ : Fin 16) (⟨(i 2).val, (i 2).isLt⟩ : Fin 4096))

/-- A TILE'S ROW MINIMA: what the body stores into the first output's buffer at point `t`, at row `r`, is the row
    minimum of the squared distances at row `1024·(t % 4) + r` of batch `t / 4`. -/
def RowTile : Prop := ∀ (c : Dev nD) (t : Fin cfg0.N) (r : Fin 1024),
  (k0_pay2 (iblk m c 0 t) (iblk m c 1 t) : Vec Ideal S1x1024x1 .f32) (ix3 (0 : Fin 1) r (0 : Fin 1))
    = rowMin (sqDiff (P m c) (Q m c)) (ix2 (⟨t.val / 4, batch_lt t⟩ : Fin 16) (⟨1024 * (t.val % 4) + r.val, row_lt t r⟩ : Fin 4096))

/-- THE COLUMN MINIMA AFTER A BATCH'S LAST TILE: the running minima then are the column minima over all 4096 rows. -/
def ColLast : Prop := ∀ (c : Dev nD) (t : Fin cfg0.N), t.val % 4 = 3 → ∀ mm : Fin 4096,
  (accAt m c t.val t.isLt : Vec Ideal S1x1x4096 .f32) (ix3 (0 : Fin 1) (0 : Fin 1) mm)
    = colMin (sqDiff (P m c) (Q m c)) (ix2 (⟨t.val / 4, batch_lt t⟩ : Fin 16) mm)

/-! ## The index maps over the grid -/

theorem idx_out2 : ∀ t : Fin cfg0.N, win0_2.index t (0 : Fin 3) = t.val / 4 ∧ win0_2.index t (1 : Fin 3) = t.val % 4
    ∧ win0_2.index t (2 : Fin 3) = 0 :=
  (by decide +kernel : ∀ t : Fin grid0.N, win0_2.index t (0 : Fin 3) = t.val / 4 ∧ win0_2.index t (1 : Fin 3) = t.val % 4
    ∧ win0_2.index t (2 : Fin 3) = 0)
theorem idx_out3 : ∀ t : Fin cfg0.N, win0_3.index t (0 : Fin 3) = t.val / 4 ∧ win0_3.index t (1 : Fin 3) = 0
    ∧ win0_3.index t (2 : Fin 3) = 0 :=
  (by decide +kernel : ∀ t : Fin grid0.N, win0_3.index t (0 : Fin 3) = t.val / 4 ∧ win0_3.index t (1 : Fin 3) = 0
    ∧ win0_3.index t (2 : Fin 3) = 0)

/-! ## What a point writes back -/

/-- Point `t` writes back, into the first output, block `t` of `G2` of the clouds. -/
theorem flushed2_eq (hrow : RowTile m) (c : Dev nD) (t : Fin cfg0.N) :
    (Body.dats m 0 c).flushed 2 t = ((cfg0.win 2).blk t).view.read (Elt Ideal) (G2 (P m c) (Q m c)) := by
  show (cfg0.win 2).cut (grid0.coords t) ((Body.dats m 0 c).after 2 t) = _
  rw [Body.after2]
  obtain ⟨e0, e1, e2⟩ := idx_out2 t
  funext y
  have hy0 : (y 0).val = 0 := by have h : (y 0).val < 1 := (y 0).isLt; omega
  have hy2 : (y 2).val = 0 := by have h : (y 2).val < 1 := (y 2).isLt; omega
  have hy : y = ix3 (0 : Fin 1) (⟨(y 1).val, (y 1).isLt⟩ : Fin 1024) (0 : Fin 1) := by
    funext a; apply Fin.ext
    match a with
    | ⟨0, _⟩ => exact hy0
    | ⟨1, _⟩ => rfl
    | ⟨2, _⟩ => exact hy2
  show (k0_pay2 (iblk m c 0 t) (iblk m c 1 t) : Vec Ideal S1x1024x1 .f32) y
    = G2 (P m c) (Q m c) (((cfg0.win 2).blk t).view.emb y)
  rw [hy, hrow c t ⟨(y 1).val, (y 1).isLt⟩]
  unfold G2
  refine congrArg (rowMin (sqDiff (P m c) (Q m c))) ?_
  funext a; apply Fin.ext
  match a with
  | ⟨0, _⟩ =>
    show t.val / 4 = win0_2.index t (0 : Fin 3) * 1 + 1 * 0
    omega
  | ⟨1, _⟩ =>
    show 1024 * (t.val % 4) + (y 1).val = win0_2.index t (1 : Fin 3) * 1024 + 1 * (y 1).val
    omega

/-- After a batch's last tile point `t` writes back, into the second output, block `t` of `G3` of the clouds. -/
theorem flushed3_eq (hcol : ColLast m) (c : Dev nD) (t : Fin cfg0.N) (h3 : t.val % 4 = 3) :
    (Body.dats m 0 c).flushed 3 t = ((cfg0.win 3).blk t).view.read (Elt Ideal) (G3 (P m c) (Q m c)) := by
  show (cfg0.win 3).cut (grid0.coords t) ((Body.dats m 0 c).after 3 t) = _
  rw [Body.after3]
  obtain ⟨e0, e1, e2⟩ := idx_out3 t
  funext y
  have hy0 : (y 0).val = 0 := by have h : (y 0).val < 1 := (y 0).isLt; omega
  have hy1 : (y 1).val = 0 := by have h : (y 1).val < 1 := (y 1).isLt; omega
  have hy : y = ix3 (0 : Fin 1) (0 : Fin 1) (⟨(y 2).val, (y 2).isLt⟩ : Fin 4096) := by
    funext a; apply Fin.ext
    match a with
    | ⟨0, _⟩ => exact hy0
    | ⟨1, _⟩ => exact hy1
    | ⟨2, _⟩ => rfl
  show (accAt m c t.val t.isLt : Vec Ideal S1x1x4096 .f32) y
    = G3 (P m c) (Q m c) (((cfg0.win 3).blk t).view.emb y)
  rw [hy, hcol c t h3 ⟨(y 2).val, (y 2).isLt⟩]
  unfold G3
  refine congrArg (colMin (sqDiff (P m c) (Q m c))) ?_
  funext a; apply Fin.ext
  match a with
  | ⟨0, _⟩ =>
    show t.val / 4 = win0_3.index t (0 : Fin 3) * 1 + 1 * 0
    omega
  | ⟨1, _⟩ =>
    show (y 2).val = win0_3.index t (2 : Fin 3) * 4096 + 1 * (y 2).val
    omega

/-! ## The blocks tile the arrays -/

/-- An index of the first output is in point `t`'s block iff each coordinate is in the block's range on its axis. -/
theorem mem_blk2 (t : Fin cfg0.N) (i : S16x4096x1.Idx) :
    i ∈ ((cfg0.win 2).blk t).view.set ↔ ∀ a : Fin 3, win0_2.index t a * S1x1024x1.size a ≤ (i a).val
      ∧ (i a).val < win0_2.index t a * S1x1024x1.size a + S1x1024x1.size a := by
  show i ∈ ((View.whole main_v1_0).slice (win0_2.rect t)).set ↔ _
  rw [View.set_slice_whole, Rect.mem_set_unit]
  exact Iff.rfl
/-- The same for the second output. -/
theorem mem_blk3 (t : Fin cfg0.N) (i : S16x1x4096.Idx) :
    i ∈ ((cfg0.win 3).blk t).view.set ↔ ∀ a : Fin 3, win0_3.index t a * S1x1x4096.size a ≤ (i a).val
      ∧ (i a).val < win0_3.index t a * S1x1x4096.size a + S1x1x4096.size a := by
  show i ∈ ((View.whole main_v1_1).slice (win0_3.rect t)).set ↔ _
  rw [View.set_slice_whole, Rect.mem_set_unit]
  exact Iff.rfl

/-- Row `n` of batch `b` is written by the point of tile `n / 1024` of that batch. -/
theorem cover2 (i : S16x4096x1.Idx) :
    ∃ t : Fin cfg0.N, (cfg0.win 2).flush t = true ∧ i ∈ ((cfg0.win 2).blk t).view.set := by
  have h0 : (i 0).val < 16 := (i 0).isLt
  have h1 : (i 1).val < 4096 := (i 1).isLt
  have h2 : (i 2).val < 1 := (i 2).isLt
  have hN : cfg0.N = 64 := N_0
  refine ⟨⟨4 * (i 0).val + (i 1).val / 1024, by omega⟩, flush0_2 _, ?_⟩
  rw [mem_blk2]
  obtain ⟨e0, e1, e2⟩ := idx_out2 ⟨4 * (i 0).val + (i 1).val / 1024, by omega⟩
  dsimp only at e0 e1 e2
  intro a
  match a with
  | ⟨0, _⟩ =>
    show win0_2.index _ (0 : Fin 3) * 1 ≤ (i 0).val ∧ (i 0).val < win0_2.index _ (0 : Fin 3) * 1 + 1
    omega
  | ⟨1, _⟩ =>
    show win0_2.index _ (1 : Fin 3) * 1024 ≤ (i 1).val ∧ (i 1).val < win0_2.index _ (1 : Fin 3) * 1024 + 1024
    omega
  | ⟨2, _⟩ =>
    show win0_2.index _ (2 : Fin 3) * 1 ≤ (i 2).val ∧ (i 2).val < win0_2.index _ (2 : Fin 3) * 1 + 1
    omega

/-- Batch `b`'s row of the second output is written by the point of that batch's last tile. -/
theorem cover3 (i : S16x1x4096.Idx) :
    ∃ t : Fin cfg0.N, (cfg0.win 3).flush t = true ∧ i ∈ ((cfg0.win 3).blk t).view.set := by
  have h0 : (i 0).val < 16 := (i 0).isLt
  have h1 : (i 1).val < 1 := (i 1).isLt
  have h2 : (i 2).val < 4096 := (i 2).isLt
  have hN : cfg0.N = 64 := N_0
  refine ⟨⟨4 * (i 0).val + 3, by omega⟩, (flush0_3 _).mpr (by dsimp only; omega), ?_⟩
  rw [mem_blk3]
  obtain ⟨e0, e1, e2⟩ := idx_out3 ⟨4 * (i 0).val + 3, by omega⟩
  dsimp only at e0 e1 e2
  intro a
  match a with
  | ⟨0, _⟩ =>
    show win0_3.index _ (0 : Fin 3) * 1 ≤ (i 0).val ∧ (i 0).val < win0_3.index _ (0 : Fin 3) * 1 + 1
    omega
  | ⟨1, _⟩ =>
    show win0_3.index _ (1 : Fin 3) * 1 ≤ (i 1).val ∧ (i 1).val < win0_3.index _ (1 : Fin 3) * 1 + 1
    omega
  | ⟨2, _⟩ =>
    show win0_3.index _ (2 : Fin 3) * 4096 ≤ (i 2).val ∧ (i 2).val < win0_3.index _ (2 : Fin 3) * 4096 + 4096
    omega

/-- THE FIRST OUTPUT after the run is `G2` of the clouds, -/
theorem final2 (hrow : RowTile m) (c : Dev nD) : (Body.dats m 0 c).arrAt 2 cfg0.N = G2 (P m c) (Q m c) :=
  (Body.dats m 0 c).arrAt_eq_of_cover 2 (G2 (P m c) (Q m c)) (fun t _ => flushed2_eq m hrow c t) cover2
/-- and THE SECOND is `G3`. -/
theorem final3 (hcol : ColLast m) (c : Dev nD) : (Body.dats m 0 c).arrAt 3 cfg0.N = G3 (P m c) (Q m c) :=
  (Body.dats m 0 c).arrAt_eq_of_cover 3 (G3 (P m c) (Q m c))
    (fun t hf => flushed3_eq m hcol c t ((flush0_3 t).mp hf)) cover3

end Cert.KernelIdeal.Arrays

end
-- ==== Proof.Tail.lean ====
/-
  @main's lines after the region, read: each output array with its unit axis dropped is the array of row minima
  (resp. column minima) of the squared distances, so what the lines compute — each summed over both axes, divided by
  65536, the two added — is the specification's result. Then the whole run, re-posted at that result.
-/
import proofs.«179393_j32839319945864_2_alg».proof.Proof.Arrays

set_option maxRecDepth 16384

noncomputable section

namespace Cert.KernelIdeal.Arrays

open Cert.KernelIdeal Cert.KernelIdeal.Gen Cert.KernelIdeal.Body Cert.Spec
open Idealize.ShloMosaic Idealize.ShloMosaic.TcCoe Idealize.ShloMosaic.ValueIdx Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-- The first output array as the lines after the region find it, its unit axis dropped: at `(b, n)` the row minimum. -/
theorem dist1_eq (hrow : RowTile m) (c : Dev nD) (j : S16x4096.Idx) :
    shapeCast S16x4096 (Pipeline.withArrays (cfgs 0).spec c (V0 m c) (fun w => (Body.dats m 0 c).arrAt w (cfgs 0).N)
        (Proc.devRef .tc main_v1_0)) shapeCasts_S16x4096x1_S16x4096 j
      = rowMin (sqDiff (P m c) (Q m c)) j := by
  have hw : Pipeline.withArrays (cfgs 0).spec c (V0 m c) (fun w => (Body.dats m 0 c).arrAt w (cfgs 0).N)
      (Proc.devRef .tc main_v1_0) = G2 (P m c) (Q m c) :=
    (Pipeline.withArrays_arr spec0 launch0.win.arr_inj c _ _ 2).trans (final2 m hrow c)
  rw [hw]
  refine (shapeCast_apply _ _ j (ix3 (⟨(j 0).val, (j 0).isLt⟩ : Fin 16) (⟨(j 1).val, (j 1).isLt⟩ : Fin 4096) (0 : Fin 1)) ?_).trans ?_
  · rw [Shape.rowMajor_val_three, Shape.rowMajor_val_two]
    show ((j 0).val * 4096 + (j 1).val) * 1 + 0 = (j 0).val * 4096 + (j 1).val
    omega
  · unfold G2
    refine congrArg (rowMin (sqDiff (P m c) (Q m c))) ?_
    funext a; match a with | ⟨0, _⟩ => rfl | ⟨1, _⟩ => rfl

/-- The second likewise: at `(b, m)` the column minimum. -/
theorem dist2_eq (hcol : ColLast m) (c : Dev nD) (j : S16x4096.Idx) :
    shapeCast S16x4096 (Pipeline.withArrays (cfgs 0).spec c (V0 m c) (fun w => (Body.dats m 0 c).arrAt w (cfgs 0).N)
        (Proc.devRef .tc main_v1_1)) shapeCasts_S16x1x4096_S16x4096 j
      = colMin (sqDiff (P m c) (Q m c)) j := by
  have hw : Pipeline.withArrays (cfgs 0).spec c (V0 m c) (fun w => (Body.dats m 0 c).arrAt w (cfgs 0).N)
      (Proc.devRef .tc main_v1_1) = G3 (P m c) (Q m c) :=
    (Pipeline.withArrays_arr spec0 launch0.win.arr_inj c _ _ 3).trans (final3 m hcol c)
  rw [hw]
  refine (shapeCast_apply _ _ j (ix3 (⟨(j 0).val, (j 0).isLt⟩ : Fin 16) (0 : Fin 1) (⟨(j 1).val, (j 1).isLt⟩ : Fin 4096)) ?_).trans ?_
  · rw [Shape.rowMajor_val_three, Shape.rowMajor_val_two]
    show ((j 0).val * 1 + 0) * 4096 + (j 1).val = (j 0).val * 4096 + (j 1).val
    omega
  · unfold G3
    refine congrArg (colMin (sqDiff (P m c) (Q m c))) ?_
    funext a; match a with | ⟨0, _⟩ => rfl | ⟨1, _⟩ => rfl

/-- WHAT @main RETURNS: the specification's result at the squared distances of the two clouds as launched. -/
theorem tail_eq (hrow : RowTile m) (hcol : ColLast m) (c : Dev nD) :
    Pipeline.afterTail₀ cfgs (Body.dats m) 0 (V0 m) [hostOps1] c main_v8
      = Spec.result reducesTo_S16x4096_S_d0_1 h_S_ (sqDiff (P m c) (Q m c)) := by
  unfold Pipeline.afterTail₀
  show StableHlo.after hostOps1 _ (Proc.devRef .tc main_v8) = _
  after_results
  unfold Spec.result Spec.means
  refine congrArg₂ (fun A B : FVec Ideal SMin .f32 =>
    addf (F := Ideal)
      (Host.divf (F := Ideal) (Host.reduceAdd (F := Ideal) A (constant (F := Ideal) SOne .f32 0x00000000#32) reducesTo_S16x4096_S_d0_1 h_S_)
        (constant (F := Ideal) SOne .f32 0x47800000#32))
      (Host.divf (F := Ideal) (Host.reduceAdd (F := Ideal) B (constant (F := Ideal) SOne .f32 0x00000000#32) reducesTo_S16x4096_S_d0_1 h_S_)
        (constant (F := Ideal) SOne .f32 0x47800000#32)))
    (funext fun j => ?_) (funext fun j => ?_)
  · exact dist1_eq m hrow c j
  · exact dist2_eq m hcol c j

/-- THE RUN, READ: from any memory with zero counters every weakly fair execution of @main terminates with the result
    buffer at the specification's result and both argument arrays as launched. -/
theorem run (hrow : RowTile m) (hcol : ColLast m) :
    θ_run defs (onTc (τ := τ) (main (F := Ideal))) ⟨m, fun _ => 0, ρ⟩ (fun r => ∀ c : Dev nD,
      r.2.mem ((c.tc : Thread nD τ).loc main_v8) = Spec.result reducesTo_S16x4096_S_d0_1 h_S_ (sqDiff (P m c) (Q m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v8 (Pipeline.mem_restRefs_of main_v8 (by decide) (by decide))).trans (tail_eq m hrow hcol c),
      ((h c).1 0).trans (((Body.dats m 0 c).arrAt_in 0 rfl _).trans ((Body.A_eq m c 0).trans (V_main_arg0 m c))),
      ((h c).2 main_arg1 (Pipeline.mem_restRefs_of main_arg1 (by decide) (by decide))).trans (W_main_arg1 m (Body.dats m) c)⟩)
    (Body.run_main m ρ)

end Cert.KernelIdeal.Arrays

end
-- ==== Proof.LibMinAxis.lean ====
/-
  General lemmas over the extended reals and over arrays of any element type, independent of any program.

  • A minimum-reduction over ONE axis of an array, read at a result index: the fold of `min`, started from the
    accumulator's value, over that axis's coordinates (the result index with the coordinate inserted on the dropped
    axis). It holds because `min` on the extended reals commutes and associates, so the order in which the reduction
    visits the entries does not matter.
  • Two re-layings around a TRAILING unit axis: a vector `[a]` read as a column `[a, 1]`, and a column `[a, 1]`
    spread over `[a, b]`, each read at an index given by its coordinates.
-/
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

namespace Cert.Lib.MinAxis

open Idealize.ShloMosaic Idealize.ShloMosaic.ValueIdx

variable {α : Type}

/-! ## Layout operations at an index: a trailing unit axis -/

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## A minimum over one axis -/

/-- A float `multi_reduction <minimumf>` over one axis, read over the extended reals: the fold of `min` from the
    accumulator's value over that axis's coordinates. -/
theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

end Cert.Lib.MinAxis

end
-- ==== Proof.Payload.lean ====
/-
  The body's arithmetic read at one element, over the extended reals.

  A tile of the first cloud is `x0 : [1, 1024, 3]` and the transposed second cloud of the batch is `x1 : [1, 3, 4096]`.
  * The squared-distance tile `[1024, 4096]` at `(r, m)` is the sum, added left to right, of the three squared
    differences `(x0[0, r, c] − x1[0, c, m])²`: each column of `x0` is spread along the rows' second axis, each row of
    `x1` along the first, and subtraction, multiplication and addition act elementwise.
  * Its minimum along axis 1 (kept as a `[1, 1024, 1]` block) at row `r` is the fold of `min` from +∞ over the 4096
    entries of that row; its minimum along axis 0 (kept as `[1, 4096]`) at column `m` is the fold over the 1024
    entries of that column. A reduction over one axis is the fold over that axis's coordinates because `min`
    commutes and associates.
  * The column minimum stored as `[1, 1, 4096]` is the same value, and the running update is the `min` of the stored
    accumulator and the column minimum.
-/
import proofs.«179393_j32839319945864_2_alg».proof.Proof.Gen.KernelIdeal.Skeleton
import proofs.«179393_j32839319945864_2_alg».proof.Proof.Spec
import proofs.«179393_j32839319945864_2_alg».proof.Proof.LibMinAxis
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

namespace Cert.KernelIdeal.Pay

open Cert.KernelIdeal Cert.KernelIdeal.Gen Cert.Lib.MinAxis Idealize.ShloMosaic Idealize.ShloMosaic.ValueIdx

variable {α : Type}

/-! ## The squared-distance tile -/

/-- Column `c` of the tile of the first cloud, spread over the 4096 columns. -/
theorem col_apply (x0 : Vec Ideal S1x1024x3 .f32) (o : ℕ) (c : Fin 3) (hc : c.val = o)
    (h1 : S1x1024x3.ShapeCasts S1024x3) (h2 : S1024x3.Slices ![0, o] S1024x1) (h3 : S1024x1.Broadcasts S1024x4096)
    (r : Fin 1024) (mm : Fin 4096) :
    broadcastTo S1024x4096 (extractStridedSlice S1024x1 ![0, o] (shapeCast S1024x3 x0 h1) h2) h3 (ix2 r mm)
      = x0 (ix3 0 r c) :=
  (broadcastTo_a1_ab_apply _ h3 r mm).trans
    ((slice2_axis1_apply o _ h2 r (0 : Fin 1) c (by rw [hc]; rfl)).trans (shapeCast_1ab_ab_apply x0 h1 r c))

/-- Row `c` of the transposed second cloud, spread over the 1024 rows. -/
theorem row_apply (x1 : Vec Ideal S1x3x4096 .f32) (o : ℕ) (c : Fin 3) (hc : c.val = o)
    (h1 : S1x3x4096.ShapeCasts S3x4096) (h2 : S3x4096.Slices ![o, 0] S1x4096) (h3 : S1x4096.Broadcasts S1024x4096)
    (r : Fin 1024) (mm : Fin 4096) :
    broadcastTo S1024x4096 (extractStridedSlice S1x4096 ![o, 0] (shapeCast S3x4096 x1 h1) h2) h3 (ix2 r mm)
      = x1 (ix3 0 c mm) :=
  (broadcastTo_1b_ab_apply _ h3 r mm).trans
    ((slice2_axis0_apply o _ h2 (0 : Fin 1) mm c (by rw [hc]; rfl)).trans (shapeCast_1ab_ab_apply x1 h1 c mm))

/-- The squared-distance tile at `(r, mm)`: the three squared coordinate differences, added left to right. -/
theorem pay1_apply (x0 : Vec Ideal S1x1024x3 .f32) (x1 : Vec Ideal S1x3x4096 .f32) (r : Fin 1024) (mm : Fin 4096) :
    k0_pay1 x0 x1 (ix2 r mm)
      = ((x0 (ix3 0 r 0) - x1 (ix3 0 0 mm)) * (x0 (ix3 0 r 0) - x1 (ix3 0 0 mm))
          + (x0 (ix3 0 r 1) - x1 (ix3 0 1 mm)) * (x0 (ix3 0 r 1) - x1 (ix3 0 1 mm)))
        + (x0 (ix3 0 r 2) - x1 (ix3 0 2 mm)) * (x0 (ix3 0 r 2) - x1 (ix3 0 2 mm)) := by
  unfold k0_pay1
  simp only [addf_apply, mulf_apply, subf_apply]
  rw [col_apply x0 0 0 rfl, col_apply x0 1 1 rfl, col_apply x0 2 2 rfl,
    row_apply x1 0 0 rfl, row_apply x1 1 1 rfl, row_apply x1 2 2 rfl]

/-! ## The two minima -/

/-- The minimum along axis 1, kept as `[1, 1024, 1]`: at row `r` the fold of `min` from +∞ over the row's entries. -/
theorem pay2_apply (x0 : Vec Ideal S1x1024x3 .f32) (x1 : Vec Ideal S1x3x4096 .f32) (r : Fin 1024) :
    k0_pay2 x0 x1 (ix3 0 r 0)
      = (Finset.univ : Finset (Fin 4096)).fold min Cert.Spec.inf32 (fun mm => k0_pay1 x0 x1 (ix2 r mm)) := by
  unfold k0_pay2
  refine (shapeCast_ab_1ab_apply _ _ 0 r 0).trans ?_
  refine (shapeCast_a_a1_apply _ _ r 0).trans ?_
  refine (multiReduction_minimumf_single _ _ _ _ _ (ix1 r)).trans ?_
  refine congrArg (fun f => (Finset.univ : Finset (Fin 4096)).fold min Cert.Spec.inf32 f)
    (funext fun mm => congrArg (k0_pay1 x0 x1) (?_ : reduces_S1024x4096_S1024.lift (ix1 r) mm = ix2 r mm))
  funext c
  match c with
  | ⟨0, _⟩ => exact Fin.ext rfl
  | ⟨1, _⟩ => exact Fin.ext rfl

/-- The minimum along axis 0, kept as `[1, 4096]`: at column `mm` the fold of `min` from +∞ over the column's entries. -/
theorem pay3_apply (x0 : Vec Ideal S1x1024x3 .f32) (x1 : Vec Ideal S1x3x4096 .f32) (mm : Fin 4096) :
    k0_pay3 x0 x1 (ix2 0 mm)
      = (Finset.univ : Finset (Fin 1024)).fold min Cert.Spec.inf32 (fun r => k0_pay1 x0 x1 (ix2 r mm)) := by
  unfold k0_pay3
  refine (shapeCast_a_1a_apply _ _ 0 mm).trans ?_
  refine (multiReduction_minimumf_single _ _ _ _ _ (ix1 mm)).trans ?_
  refine congrArg (fun f => (Finset.univ : Finset (Fin 1024)).fold min Cert.Spec.inf32 f)
    (funext fun r => congrArg (k0_pay1 x0 x1) (?_ : reduces_S1024x4096_S4096.lift (ix1 mm) r = ix2 r mm))
  funext c
  match c with
  | ⟨0, _⟩ => exact Fin.ext rfl
  | ⟨1, _⟩ => exact Fin.ext rfl

/-- The column minimum stored as `[1, 1, 4096]` is the column minimum. -/
theorem pay4_apply (x0 : Vec Ideal S1x1024x3 .f32) (x1 : Vec Ideal S1x3x4096 .f32) (mm : Fin 4096) :
    k0_pay4 x0 x1 (ix3 0 0 mm) = k0_pay3 x0 x1 (ix2 0 mm) := by
  unfold k0_pay4
  exact shapeCast_ab_1ab_apply _ _ 0 0 mm

/-- The running update: the `min` of the stored accumulator and the column minimum. -/
theorem pay5_apply (x0 : Vec Ideal S1x1024x3 .f32) (x1 : Vec Ideal S1x3x4096 .f32) (acc : Vec Ideal S1x1x4096 .f32)
    (mm : Fin 4096) :
    k0_pay5 x0 x1 acc (ix3 0 0 mm) = min (acc (ix3 0 0 mm)) (k0_pay3 x0 x1 (ix2 0 mm)) := by
  unfold k0_pay5
  refine (shapeCast_ab_1ab_apply _ _ 0 0 mm).trans ?_
  refine (minimumf_apply _ _ _).trans ?_
  exact congrArg (fun z => min z (k0_pay3 x0 x1 (ix2 0 mm))) (shapeCast_1ab_ab_apply acc _ 0 mm)

end Cert.KernelIdeal.Pay

end
-- ==== Proof.InputBlocks.lean ====
/-
  The two input blocks a grid point reads, index by index: the block of the first cloud is 1024 consecutive points
  of one batch, the block of the second cloud is the whole batch, coordinate axis before point axis.
-/
import proofs.«179393_j32839319945864_2_alg».proof.Proof.Gen.KernelIdeal.Frame
import Idealize.ShloMosaic.Lib.ValueIdx
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.ShloMosaic.ValueIdx Idealize.SL.Sem

variable {F : FTy → Type} [FloatOps F] (m : (ℓ : Loc nD τ sig) → Buf (Elt F) ℓ)

/-- The grid has 16 × 4 = 64 points. -/
theorem point_lt (t : Fin cfg0.N) : t.val < 64 := lt_of_lt_of_eq t.isLt N_0

/-- Point `t` is batch `t / 4`, quarter `t % 4`: the first cloud's block index is (batch, quarter, 0). -/
theorem index0 : ∀ t : Fin cfg0.N, win0_0.index t (0 : Fin 3) = t.val / 4 ∧ win0_0.index t (1 : Fin 3) = t.val % 4
    ∧ win0_0.index t (2 : Fin 3) = 0 :=
  (by decide +kernel : ∀ t : Fin grid0.N, _)

/-- The second cloud's block index is (batch, 0, 0): the whole batch at every quarter. -/
theorem index1 : ∀ t : Fin cfg0.N, win0_1.index t (0 : Fin 3) = t.val / 4 ∧ win0_1.index t (1 : Fin 3) = 0
    ∧ win0_1.index t (2 : Fin 3) = 0 :=
  (by decide +kernel : ∀ t : Fin grid0.N, _)

/-- Row `r`, coordinate `cc` of the first cloud's block at point `t` is point `1024 · (t % 4) + r` of batch `t / 4`. -/
theorem block0_apply (c : Dev nD) (t : Fin cfg0.N) (r : Fin 1024) (cc : Fin 3) :
    (iblk m c 0 t : Vec F S1x1024x3 .f32) (ix3 (0 : Fin 1) r cc)
      = m ((c : Thread nD τ).loc main_arg0)
          (ix3 (⟨t.val / 4, by have := point_lt t; omega⟩ : Fin 16)
            (⟨1024 * (t.val % 4) + r.val, by have := point_lt t; have := r.isLt; omega⟩ : Fin 4096) cc) := by
  have ht := point_lt t
  obtain ⟨e0, e1, e2⟩ := index0 t
  show V m c main_arg0 (((cfg0.win 0).blk t).view.emb (ix3 (0 : Fin 1) r cc)) = _
  rw [V_main_arg0]
  refine congrArg (m ((c : Thread nD τ).loc main_arg0)) (funext fun a => Fin.ext ?_)
  match a with
  | ⟨0, _⟩ => show win0_0.index t (0 : Fin 3) * 1 + 1 * 0 = t.val / 4; omega
  | ⟨1, _⟩ => show win0_0.index t (1 : Fin 3) * 1024 + 1 * r.val = 1024 * (t.val % 4) + r.val; omega
  | ⟨2, _⟩ => show win0_0.index t (2 : Fin 3) * 3 + 1 * cc.val = cc.val; omega

/-- The array the second window stages is what the one host operation before the region wrote: the second cloud with
    its point and coordinate axes exchanged. -/
theorem staged1_eq (c : Dev nD) :
    (V m c main_v0 : S16x3x4096.Idx → Elt F .f32)
      = transpose S16x3x4096 [0, 2, 1] (m ((c : Thread nD τ).loc main_arg1)) transposes_S16x4096x3_S16x3x4096_0_2_1 := by
  show StableHlo.after hostOps0 (fun b => m (c, b)) (Proc.devRef .tc main_v0) = _
  after_results

/-- Coordinate `cc`, column `mm` of the second cloud's block at point `t` is coordinate `cc` of point `mm` of batch
    `t / 4`. -/
theorem block1_apply (c : Dev nD) (t : Fin cfg0.N) (cc : Fin 3) (mm : Fin 4096) :
    (iblk m c 1 t : Vec F S1x3x4096 .f32) (ix3 (0 : Fin 1) cc mm)
      = m ((c : Thread nD τ).loc main_arg1)
          (ix3 (⟨t.val / 4, by have := point_lt t; omega⟩ : Fin 16) mm cc) := by
  have ht := point_lt t
  obtain ⟨e0, e1, e2⟩ := index1 t
  have ei : ((cfg0.win 1).blk t).view.emb (ix3 (0 : Fin 1) cc mm)
      = (ix3 (⟨t.val / 4, by omega⟩ : Fin 16) cc mm : S16x3x4096.Idx) := by
    funext a; apply Fin.ext
    match a with
    | ⟨0, _⟩ => show win0_1.index t (0 : Fin 3) * 1 + 1 * 0 = t.val / 4; omega
    | ⟨1, _⟩ => show win0_1.index t (1 : Fin 3) * 3 + 1 * cc.val = cc.val; omega
    | ⟨2, _⟩ => show win0_1.index t (2 : Fin 3) * 4096 + 1 * mm.val = mm.val; omega
  show (V m c main_v0 : S16x3x4096.Idx → Elt F .f32) (((cfg0.win 1).blk t).view.emb (ix3 (0 : Fin 1) cc mm)) = _
  rw [ei, staged1_eq]
  exact transpose_apply _ _ transposes_S16x4096x3_S16x3x4096_0_2_1 _ _
    (fun b => match b with | ⟨0, _⟩ => rfl | ⟨1, _⟩ => rfl | ⟨2, _⟩ => rfl)

end Cert.KernelIdeal.Blocks

end
-- ==== Proof.Algebra.lean ====
/-
  Pure mathematics over the extended reals for the squared-distance table and its minima.

  * The f32 word 0x40000000 denotes the real number 2.
  * On finite coordinates the sum of the three squared coordinate differences equals the expanded form
    |p|² + |q|² − 2 p·q: after choosing real witnesses for every coordinate both sides are coercions of real
    polynomials, and the identity (a−x)² + (b−y)² + (c−z)² = (a²+b²+c²) + (x²+y²+z²) − 2(ax+by+cz) holds in ℝ.
  * A minimum over 4096 indices, started from any value, is the minimum of the four minima over the consecutive
    blocks of 1024 indices, each started from the same value: min is idempotent, commutative and associative, and
    every index below 4096 is 1024·i + r for exactly one block i < 4 and offset r < 1024.
-/
import proofs.«179393_j32839319945864_2_alg».proof.Proof.Spec

noncomputable section

namespace Cert.Spec

open Idealize.ShloMosaic Idealize.ShloMosaic.ValueIdx

/-- The f32 word of `2.0` denotes the real `2`. -/
theorem ofBits_two : Ideal.ofBits .f32 0x40000000#32 = ((2 : ℝ) : EReal) := by
  simp [Ideal.ofBits, Ideal.ieee, -EReal.coe_mul]; norm_num

/-- On finite coordinates the two spellings of the squared distance agree. -/
theorem sqDiff_eq_sqExpand (P Q : SPts.Idx → EReal) (hP : ∀ i, ∃ r : ℝ, P i = (r : EReal))
    (hQ : ∀ i, ∃ r : ℝ, Q i = (r : EReal)) (b : Fin 16) (n m : Fin 4096) :
    sqDiff P Q b n m = sqExpand P Q b n m := by
  choose p hp using hP
  choose q hq using hQ
  unfold sqDiff sqExpand
  rw [Fin.sum_univ_three, Fin.sum_univ_three, Fin.sum_univ_three, Ideal.ofBits_zero_f32, ofBits_two]
  simp only [hp, hq, zero_add]
  simp only [← EReal.coe_mul, ← EReal.coe_add, ← EReal.coe_sub]
  congr 1
  ring

/-- The minimum of `f` over block `i` of 1024 consecutive indices, started from `init`. -/
def tileMin (init : EReal) (f : Fin 4096 → EReal) (i : Fin 4) : EReal :=
  (Finset.univ : Finset (Fin 1024)).fold min init (fun r : Fin 1024 => f ⟨1024 * i.val + r.val, by omega⟩)

/-- The whole minimum is below every block's minimum. -/
theorem fold_le_tileMin (init : EReal) (f : Fin 4096 → EReal) (i : Fin 4) :
    (Finset.univ : Finset (Fin 4096)).fold min init f ≤ tileMin init f i := by
  unfold tileMin
  rw [Finset.le_fold_min]
  refine ⟨(Finset.fold_min_le _).2 (Or.inl le_rfl), fun r _ => ?_⟩
  exact (Finset.fold_min_le _).2 (Or.inr ⟨_, Finset.mem_univ _, le_rfl⟩)

/-- A block's minimum is below the starting value. -/
theorem tileMin_le_init (init : EReal) (f : Fin 4096 → EReal) (i : Fin 4) : tileMin init f i ≤ init :=
  (Finset.fold_min_le _).2 (Or.inl le_rfl)

/-- A block's minimum is below every entry of the block. -/
theorem tileMin_le (init : EReal) (f : Fin 4096 → EReal) (i : Fin 4) (r : Fin 1024) :
    tileMin init f i ≤ f ⟨1024 * i.val + r.val, by omega⟩ :=
  (Finset.fold_min_le _).2 (Or.inr ⟨r, Finset.mem_univ _, le_rfl⟩)

/-- The minimum of the four block minima is below each of them. -/
theorem min4_le (T : Fin 4 → EReal) (i : Fin 4) : min (min (min (T 0) (T 1)) (T 2)) (T 3) ≤ T i := by
  match i with
  | ⟨0, _⟩ => exact (min_le_left _ _).trans ((min_le_left _ _).trans (min_le_left _ _))
  | ⟨1, _⟩ => exact (min_le_left _ _).trans ((min_le_left _ _).trans (min_le_right _ _))
  | ⟨2, _⟩ => exact (min_le_left _ _).trans (min_le_right _ _)
  | ⟨3, _⟩ => exact min_le_right _ _

/-- The minimum over all 4096 indices is the minimum of the four block minima. -/
theorem min_four_tiles (init : EReal) (f : Fin 4096 → EReal) :
    min (min (min (tileMin init f 0) (tileMin init f 1)) (tileMin init f 2)) (tileMin init f 3)
      = (Finset.univ : Finset (Fin 4096)).fold min init f := by
  apply le_antisymm
  · rw [Finset.le_fold_min]
    refine ⟨(min4_le (tileMin init f) 0).trans (tileMin_le_init init f 0), fun x _ => ?_⟩
    have hi : x.val / 1024 < 4 := by have := x.isLt; omega
    have hr : x.val % 1024 < 1024 := Nat.mod_lt _ (by norm_num)
    have hx : x = ⟨1024 * (⟨x.val / 1024, hi⟩ : Fin 4).val + (⟨x.val % 1024, hr⟩ : Fin 1024).val, by
        have := x.isLt; show 1024 * (x.val / 1024) + x.val % 1024 < 4096; omega⟩ := by
      apply Fin.ext; show x.val = 1024 * (x.val / 1024) + x.val % 1024; omega
    calc _ ≤ tileMin init f ⟨x.val / 1024, hi⟩ := min4_le (tileMin init f) _
      _ ≤ f ⟨1024 * (⟨x.val / 1024, hi⟩ : Fin 4).val + (⟨x.val % 1024, hr⟩ : Fin 1024).val, _⟩ :=
          tileMin_le init f ⟨x.val / 1024, hi⟩ ⟨x.val % 1024, hr⟩
      _ = f x := by rw [← hx]
  · exact le_min (le_min (le_min (fold_le_tileMin init f 0) (fold_le_tileMin init f 1)) (fold_le_tileMin init f 2))
      (fold_le_tileMin init f 3)

end Cert.Spec

end
-- ==== Proof.Tiles.lean ====
/-
  The body's arithmetic at a grid point, read against the squared distances of the two clouds.

  At point `t` (tile `t % 4` of batch `b = t / 4`) the body's 1024 × 4096 table is, at `(r, m)`, the squared distance
  between point `1024·(t % 4) + r` of the first cloud and point `m` of the second, both of batch `b`: the tile's block
  holds those rows of the first cloud, and the other block holds the batch of the second cloud transposed. Hence
    • the row minima the body stores are row minima of the squared distances (`rowTile`);
    • a tile's column minima are the minimum over that tile's 1024 rows (`colTile`), and the running minima after the
      fourth tile — the first tile's, then three times the minimum with the next tile's — are the minimum over all
      4096 rows, because the four tiles partition the rows (`colLast`).
-/
import proofs.«179393_j32839319945864_2_alg».proof.Proof.Arrays
import proofs.«179393_j32839319945864_2_alg».proof.Proof.Payload
import proofs.«179393_j32839319945864_2_alg».proof.Proof.InputBlocks
import proofs.«179393_j32839319945864_2_alg».proof.Proof.Algebra

set_option maxRecDepth 16384

noncomputable section

namespace Cert.KernelIdeal.Arrays

open Cert.KernelIdeal Cert.KernelIdeal.Gen Cert.KernelIdeal.Body Cert.Spec
open Idealize.ShloMosaic Idealize.ShloMosaic.TcCoe Idealize.ShloMosaic.ValueIdx
open Idealize.SL Idealize.SL.Sem

variable (m : (ℓ : Loc nD τ sig) → Buf (Elt Ideal) ℓ)

/-- The body's table at `(r, m)` is the squared distance between row `1024·(t % 4) + r` of the first cloud and
    point `m` of the second, in batch `t / 4`. -/
theorem dist_tile (c : Dev nD) (t : Fin cfg0.N) (r : Fin 1024) (mm : Fin 4096) :
    (k0_pay1 (iblk m c 0 t) (iblk m c 1 t) : FVec Ideal S1024x4096 .f32) (ix2 r mm)
      = sqDiff (P m c) (Q m c) (⟨t.val / 4, batch_lt t⟩ : Fin 16) (⟨1024 * (t.val % 4) + r.val, row_lt t r⟩ : Fin 4096) mm := by
  refine (Pay.pay1_apply (iblk m c 0 t) (iblk m c 1 t) r mm).trans ?_
  have e0 : ∀ cc : Fin 3, (iblk m c 0 t : Vec Ideal S1x1024x3 .f32) (ix3 (0 : Fin 1) r cc)
      = P m c (ix3 (⟨t.val / 4, batch_lt t⟩ : Fin 16) (⟨1024 * (t.val % 4) + r.val, row_lt t r⟩ : Fin 4096) cc) :=
    fun cc => Blocks.block0_apply m c t r cc
  have e1 : ∀ cc : Fin 3, (iblk m c 1 t : Vec Ideal S1x3x4096 .f32) (ix3 (0 : Fin 1) cc mm)
      = Q m c (ix3 (⟨t.val / 4, batch_lt t⟩ : Fin 16) mm cc) :=
    fun cc => Blocks.block1_apply m c t cc mm
  rw [e0 0, e0 1, e0 2, e1 0, e1 1, e1 2]
  rfl

/-- A TILE'S ROW MINIMA are row minima of the squared distances. -/
theorem rowTile : RowTile m := fun c t r => by
  refine (Pay.pay2_apply (iblk m c 0 t) (iblk m c 1 t) r).trans ?_
  unfold rowMin
  exact congrArg (fun f => (Finset.univ : Finset (Fin 4096)).fold min inf32 f) (funext fun mm => dist_tile m c t r mm)

/-- A TILE'S COLUMN MINIMA are, for each point of the second cloud, the minimum over the tile's 1024 rows. -/
theorem colTile (c : Dev nD) (s : Fin cfg0.N) (b : Fin 16) (i : Fin 4) (hb : s.val / 4 = b.val) (hi : s.val % 4 = i.val)
    (mm : Fin 4096) :
    (k0_pay3 (iblk m c 0 s) (iblk m c 1 s) : FVec Ideal S1x4096 .f32) (ix2 (0 : Fin 1) mm)
      = tileMin inf32 (fun n => sqDiff (P m c) (Q m c) b n mm) i := by
  obtain rfl : b = ⟨s.val / 4, batch_lt s⟩ := Fin.ext hb.symm
  obtain rfl : i = ⟨s.val % 4, Nat.mod_lt _ (by decide)⟩ := Fin.ext hi.symm
  refine (Pay.pay3_apply (iblk m c 0 s) (iblk m c 1 s) mm).trans ?_
  unfold tileMin
  exact congrArg (fun f => (Finset.univ : Finset (Fin 1024)).fold min inf32 f) (funext fun r => dist_tile m c s r mm)

/-- The running minima after a batch's first tile are that tile's column minima; -/
theorem accAt_base (c : Dev nD) (n : ℕ) (hn : n < cfg0.N) (h : n % 4 = 0) (mm : Fin 4096) :
    (accAt m c n hn : Vec Ideal S1x1x4096 .f32) (ix3 (0 : Fin 1) (0 : Fin 1) mm)
      = (k0_pay3 (iblk m c 0 ⟨n, hn⟩) (iblk m c 1 ⟨n, hn⟩) : FVec Ideal S1x4096 .f32) (ix2 (0 : Fin 1) mm) :=
  (congrFun (accAt_first m c ⟨n, hn⟩ h) _).trans (Pay.pay4_apply _ _ mm)

/-- after a later tile, the minimum of what the tile before left and this tile's column minima. -/
theorem accAt_step (c : Dev nD) (n : ℕ) (hn : n + 1 < cfg0.N) (h : ¬ (n + 1) % 4 = 0) (mm : Fin 4096) :
    (accAt m c (n + 1) hn : Vec Ideal S1x1x4096 .f32) (ix3 (0 : Fin 1) (0 : Fin 1) mm)
      = min ((accAt m c n (Nat.lt_of_succ_lt hn) : Vec Ideal S1x1x4096 .f32) (ix3 (0 : Fin 1) (0 : Fin 1) mm))
          ((k0_pay3 (iblk m c 0 ⟨n + 1, hn⟩) (iblk m c 1 ⟨n + 1, hn⟩) : FVec Ideal S1x4096 .f32) (ix2 (0 : Fin 1) mm)) :=
  (congrFun (accAt_later m c ⟨n + 1, hn⟩ h) _).trans (Pay.pay5_apply _ _ _ mm)

/-- THE COLUMN MINIMA AFTER A BATCH'S LAST TILE are the column minima over all 4096 rows: the four tiles' minima,
    folded left to right, are the minimum over the rows the four tiles partition. -/
theorem colLast : ColLast m := by
  intro c t h3 mm
  obtain ⟨tv, ht⟩ := t
  dsimp only at h3 ⊢
  obtain ⟨n0, rfl⟩ : ∃ n0, tv = n0 + 1 + 1 + 1 := ⟨tv - 3, by omega⟩
  have hN : n0 + 1 + 1 + 1 < 64 := lt_of_lt_of_eq ht N_0
  have hb : ∀ k, k ≤ 3 → (n0 + k) / 4 = (n0 + 1 + 1 + 1) / 4 := fun k hk => by omega
  rw [accAt_step m c (n0 + 1 + 1) ht (by omega) mm, accAt_step m c (n0 + 1) (Nat.lt_of_succ_lt ht) (by omega) mm,
    accAt_step m c n0 (Nat.lt_of_succ_lt (Nat.lt_of_succ_lt ht)) (by omega) mm,
    accAt_base m c n0 (Nat.lt_of_succ_lt (Nat.lt_of_succ_lt (Nat.lt_of_succ_lt ht))) (by omega) mm]
  rw [colTile m c ⟨n0, _⟩ ⟨(n0 + 1 + 1 + 1) / 4, batch_lt ⟨n0 + 1 + 1 + 1, ht⟩⟩ 0 (by dsimp only; omega) (by dsimp only; omega) mm,
    colTile m c ⟨n0 + 1, _⟩ ⟨(n0 + 1 + 1 + 1) / 4, batch_lt ⟨n0 + 1 + 1 + 1, ht⟩⟩ 1 (by dsimp only; omega) (by dsimp only; omega) mm,
    colTile m c ⟨n0 + 1 + 1, _⟩ ⟨(n0 + 1 + 1 + 1) / 4, batch_lt ⟨n0 + 1 + 1 + 1, ht⟩⟩ 2 (by dsimp only; omega) (by dsimp only; omega) mm,
    colTile m c ⟨n0 + 1 + 1 + 1, ht⟩ ⟨(n0 + 1 + 1 + 1) / 4, batch_lt ⟨n0 + 1 + 1 + 1, ht⟩⟩ 3 (by dsimp only) (by dsimp only; omega) mm]
  exact min_four_tiles inf32 _

end Cert.KernelIdeal.Arrays

end
-- ==== Proof.RefValue.lean ====
/-
  The reference's result, read index by index: both minimum-reductions of the pairwise squared distances, and the
  two means added.
-/
import proofs.«179393_j32839319945864_2_alg».proof.Defs
import proofs.«179393_j32839319945864_2_alg».proof.Proof.Gen.ReferenceIdeal.Run
import proofs.«179393_j32839319945864_2_alg».proof.Proof.Gen.ReferenceIdeal.Read
import proofs.«179393_j32839319945864_2_alg».proof.Proof.Spec
import Idealize.ShloMosaic.PureOps.Reduce
import Idealize.ShloMosaic.PureOps.Ideal.Laws
import Idealize.ShloMosaic.Lib.ValueIdx

noncomputable section

namespace Cert.ReferenceIdeal.RefValue

open Cert.ReferenceIdeal Cert.ReferenceIdeal.Gen Idealize.ShloMosaic Idealize.ShloMosaic.ValueIdx

/-- The table of pairwise squared distances the reference builds, at batch `b`, point `n` of the first cloud and
    point `m` of the second: `|p|² + |q|² − 2 p·q`, each of the three sums over the coordinate axis. -/
theorem dist_apply (x0 x1 : (⟨S16x4096x3, .f32⟩ : BufTy).Contents (Elt Ideal)) (b : Fin 16) (n m : Fin 4096) :
    Read.val_main_v12 (F := Ideal) x0 x1 (ix3 b n m) = Cert.Spec.sqExpand x0 x1 b n m := by
  have e1 : ∀ k : Fin 3, Read.idx_main_v1 (Read.idx_main_v5 (Read.idx_main_v7 (ix3 b n m))) k = ix3 b n k := fun k =>
    funext fun a => Fin.ext (by match a with | ⟨0, _⟩ => rfl | ⟨1, _⟩ => rfl | ⟨2, _⟩ => rfl)
  have e3 : ∀ k : Fin 3, Read.idx_main_v3 (Read.idx_main_v6 (Read.idx_main_v8 (ix3 b n m))) k = ix3 b m k := fun k =>
    funext fun a => Fin.ext (by match a with | ⟨0, _⟩ => rfl | ⟨1, _⟩ => rfl | ⟨2, _⟩ => rfl)
  have el : ∀ k : Fin 3, Read.lidx_main_v4 (ix3 b n m) k = ix3 b n k := fun k =>
    funext fun a => Fin.ext (by match a with | ⟨0, _⟩ => rfl | ⟨1, _⟩ => rfl | ⟨2, _⟩ => rfl)
  have er : ∀ k : Fin 3, Read.ridx_main_v4 (ix3 b n m) k = ix3 b m k := fun k =>
    funext fun a => Fin.ext (by match a with | ⟨0, _⟩ => rfl | ⟨1, _⟩ => rfl | ⟨2, _⟩ => rfl)
  rw [Read.val_main_v12_apply, Read.val_main_v9_apply, Read.val_main_v11_apply, Read.val_main_v7_apply,
    Read.val_main_v8_apply, Read.val_main_v5_apply, Read.val_main_v6_apply, Read.val_main_v1_apply,
    Read.val_main_v3_apply, Read.val_main_v10_apply, Read.val_main_cst_1_apply, Read.val_main_v4_apply,
    Read.val_main_cst_apply, Read.val_main_cst_0_apply]
  simp only [Read.val_main_v0_apply, Read.val_main_v2_apply, e1, e3, el, er, Ideal.addf_def, Ideal.subf_def,
    Ideal.mulf_def, Ideal.ofBits_def]
  rfl

/-- The fold of a minimum over one axis of the distance table, for each batch and point of the first cloud: the least
    distance to a point of the second. The reduced axis is the last one, so the index over `j` with coordinate `m`
    inserted is (batch, point, `m`). -/
theorem rowMin_apply (x0 x1 : (⟨S16x4096x3, .f32⟩ : BufTy).Contents (Elt Ideal)) (j : S16x4096.Idx) :
    Read.val_main_v13 (F := Ideal) x0 x1 j = Cert.Spec.rowMin (Cert.Spec.sqExpand x0 x1) j := by
  have h : S16x4096x4096.Reduces [2] S16x4096 := by decide
  unfold Read.val_main_v13 Cert.Spec.rowMin
  refine (Host.reduce_eq_fold_single (FloatOps.minimumf (F := Ideal) (φ := .f32)) (Read.val_main_v12 (F := Ideal) x0 x1)
    (Read.val_main_cst_2 (F := Ideal)) reducesTo_S16x4096x4096_S16x4096_d2 h h_S_ j).trans ?_
  have ef : (Read.val_main_v12 (F := Ideal) x0 x1 ∘ h.lift j) = fun m : Fin 4096 => Cert.Spec.sqExpand x0 x1 (j 0) (j 1) m := by
    funext m
    have ei : h.lift j m = ix3 (j 0) (j 1) m :=
      funext fun a => Fin.ext (by match a with | ⟨0, _⟩ => rfl | ⟨1, _⟩ => rfl | ⟨2, _⟩ => rfl)
    show Read.val_main_v12 (F := Ideal) x0 x1 (h.lift j m) = _
    rw [ei]
    exact dist_apply x0 x1 (j 0) (j 1) m
  rw [ef]
  rfl

/-- The same fold over the middle axis, for each batch and point of the second cloud: the least distance to a point of
    the first. The index over `j` with coordinate `n` inserted is (batch, `n`, point). -/
theorem colMin_apply (x0 x1 : (⟨S16x4096x3, .f32⟩ : BufTy).Contents (Elt Ideal)) (j : S16x4096.Idx) :
    Read.val_main_v14 (F := Ideal) x0 x1 j = Cert.Spec.colMin (Cert.Spec.sqExpand x0 x1) j := by
  have h : S16x4096x4096.Reduces [1] S16x4096 := by decide
  unfold Read.val_main_v14 Cert.Spec.colMin
  refine (Host.reduce_eq_fold_single (FloatOps.minimumf (F := Ideal) (φ := .f32)) (Read.val_main_v12 (F := Ideal) x0 x1)
    (Read.val_main_cst_3 (F := Ideal)) reducesTo_S16x4096x4096_S16x4096_d1 h h_S_ j).trans ?_
  have ef : (Read.val_main_v12 (F := Ideal) x0 x1 ∘ h.lift j) = fun n : Fin 4096 => Cert.Spec.sqExpand x0 x1 (j 0) n (j 1) := by
    funext n
    have ei : h.lift j n = ix3 (j 0) n (j 1) :=
      funext fun a => Fin.ext (by match a with | ⟨0, _⟩ => rfl | ⟨1, _⟩ => rfl | ⟨2, _⟩ => rfl)
    show Read.val_main_v12 (F := Ideal) x0 x1 (h.lift j n) = _
    rw [ei]
    exact dist_apply x0 x1 (j 0) n (j 1)
  rw [ef]
  rfl

/-- The reference's result: the two arrays of minima, each summed over both axes from zero and divided by 65536, the
    two quotients added. The sums and the quotients are left as they are; only the arrays of minima are read. -/
theorem result_eq (x0 x1 : (⟨S16x4096x3, .f32⟩ : BufTy).Contents (Elt Ideal)) :
    Read.val_main_v19 (F := Ideal) x0 x1
      = Cert.Spec.result reducesTo_S16x4096_S_d0_1 h_S_ (Cert.Spec.sqExpand x0 x1) := by
  have e13 : Read.val_main_v13 (F := Ideal) x0 x1 = Cert.Spec.rowMin (Cert.Spec.sqExpand x0 x1) :=
    funext (rowMin_apply x0 x1)
  have e14 : Read.val_main_v14 (F := Ideal) x0 x1 = Cert.Spec.colMin (Cert.Spec.sqExpand x0 x1) :=
    funext (colMin_apply x0 x1)
  unfold Read.val_main_v19 Read.val_main_v16 Read.val_main_v18 Read.val_main_v15 Read.val_main_v17
    Read.val_main_cst_4 Read.val_main_cst_5 Read.val_main_cst_6 Read.val_main_cst_7 Cert.Spec.result Cert.Spec.means
  rw [e13, e14]

end Cert.ReferenceIdeal.RefValue

end
-- ==== Proof.Finite.lean ====
/-
  From the finiteness precondition to "every coordinate is a real number".

  The precondition computes, for each of the two point clouds, whether |x| < +∞ holds at every entry (a reduction by
  "and" over all three axes, started from "true"), and takes the conjunction of the two answers. If the result is
  "true" then each reduction is "true", hence each compared entry is "true": max x (−x) < ⊤ in the extended reals.
  Neither ⊥ nor ⊤ satisfies that (for both, max x (−x) = ⊤), so x is the coercion of a real.
-/
import proofs.«179393_j32839319945864_2_alg».proof.Defs
import proofs.«179393_j32839319945864_2_alg».proof.Proof.Gen.Pre_finite_inputs
import Idealize.ShloMosaic.Lib.ReduceAll
import Idealize.ShloMosaic.Lib.ValueIdx

noncomputable section

namespace Cert.Proof.Finite

open Idealize.ShloMosaic Idealize.ShloMosaic.ValueIdx

/-- The f32 word 0x7F800000 denotes +∞. -/
theorem ofBits_inf : Ideal.ofBits .f32 0x7F800000#32 = (⊤ : EReal) := by
  simp [Ideal.ofBits, Ideal.ieee]

/-- An extended real whose absolute value is strictly below +∞ is a real. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- The scalar shape has one index. -/
instance : Subsingleton Cert.Pre_finite_inputs.S_.Idx := ⟨fun a b => funext fun d => d.elim0⟩

/-- If the finiteness predicate answers "true" on two point clouds, every coordinate of both is a real. -/
theorem finite_of_pre [hPre_finite_inputs : Cert.Pre_finite_inputs.Facts]
    (x0 x1 : FVec Ideal Cert.Pre_finite_inputs.S16x4096x3 .f32)
    (h : Cert.Pre_finite_inputs.fn (F := Ideal) x0 x1 = fun _ => 1#1) :
    (∀ i, ∃ r : ℝ, x0 i = (r : EReal)) ∧ (∀ i, ∃ r : ℝ, x1 i = (r : EReal)) := by
  have h0 := congrFun h ValueIdx.ix0
  dsimp only [Cert.Pre_finite_inputs.fn] at h0
  obtain ⟨ha, hb⟩ := IntOp.andi_eq_one.1 h0
  refine ⟨fun i => ?_, fun i => ?_⟩
  · exact real_of_abs_lt_inf (x0 i) (Host.reduce_andi_all _ _ _ _ _ ha i)
  · exact real_of_abs_lt_inf (x1 i) (Host.reduce_andi_all _ _ _ _ _ hb i)

end Cert.Proof.Finite

end
-- ==== Proof.lean ====
/-
  Chamfer distance between two batches of point clouds `P`, `Q : [16, 4096, 3]`: for each batch, the mean over the
  points of `P` of the squared distance to the nearest point of `Q`, plus the mean over the points of `Q` of the squared
  distance to the nearest point of `P`, the means taken over all 16 · 4096 points.

  The kernel tiles the rows: per batch and per tile of 1024 points of `P` it forms the 1024 × 4096 table of squared
  distances as the sum of the three squared coordinate differences, takes the row minima, and keeps a running
  minimum of the column minima over the batch's four tiles. The reference forms the whole 4096 × 4096 table per
  batch as `|p|² + |q|² − 2 p·q` and takes both minima of it. On FINITE coordinates the two tables agree entry by
  entry (that is where the precondition is used: the expansion distributes a product over a sum, which fails at
  infinities); a minimum over 4096 rows is the minimum of the minima over the four tiles of 1024; and both programs
  end with the same sums, quotients by 65536 and addition. So the results are equal as extended reals.

  The three frames: the two kernel programs run the same body, whose two control cases (a batch's first tile; a
  later tile) are run once each at a symbolic point (Proof/BodyBits.lean, Proof/BodyIdeal.lean); the reference has
  no kernel and its frame is its run with the result dropped. Nothing was rewritten between the kernel and its
  idealization, so that conjunct is trivial.
-/
import proofs.«179393_j32839319945864_2_alg».proof.Defs
import proofs.«179393_j32839319945864_2_alg».proof.Proof.Gen.Kernel
import proofs.«179393_j32839319945864_2_alg».proof.Proof.Gen.KernelIdeal
import proofs.«179393_j32839319945864_2_alg».proof.Proof.Gen.ReferenceIdeal
import proofs.«179393_j32839319945864_2_alg».proof.Proof.Gen.Pre_finite_inputs
import proofs.«179393_j32839319945864_2_alg».proof.Proof.Gen.ReferenceIdeal.Run
import proofs.«179393_j32839319945864_2_alg».proof.Proof.Gen.ReferenceIdeal.Read
import proofs.«179393_j32839319945864_2_alg».proof.Proof.BodyBits
import proofs.«179393_j32839319945864_2_alg».proof.Proof.BodyIdeal
import proofs.«179393_j32839319945864_2_alg».proof.Proof.Tail
import proofs.«179393_j32839319945864_2_alg».proof.Proof.Tiles
import proofs.«179393_j32839319945864_2_alg».proof.Proof.RefValue
import proofs.«179393_j32839319945864_2_alg».proof.Proof.Algebra
import proofs.«179393_j32839319945864_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves both clouds as launched. -/
theorem frame_kernel : Cert.frame_Kernel := fun m ρ _ => Cert.Kernel.Body.frame (F := Bits) m ρ

/-- So does its idealization. -/
theorem frame_kernelIdeal : Cert.frame_KernelIdeal := fun m ρ _ => Cert.KernelIdeal.Body.frame (F := Ideal) m ρ

/-- The reference is host operations only: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal values, from memories agreeing on the two clouds, the kernel ends at the specification's result of
    the squared distances in difference form, the reference at the same of the expanded form; on the finite
    coordinates the precondition grants, the two forms are one table. -/
theorem algebraic : Cert.algebraic_KernelIdeal_ReferenceIdeal := by
  intro m ρ m' ρ' hpre hagree
  refine ⟨fun c => Cert.Spec.result Cert.KernelIdeal.Gen.reducesTo_S16x4096_S_d0_1 Cert.KernelIdeal.Gen.h_S_
      (Cert.Spec.sqDiff (Cert.KernelIdeal.Arrays.P m c) (Cert.KernelIdeal.Arrays.Q m c)),
    Cert.KernelIdeal.Arrays.run m ρ (Cert.KernelIdeal.Arrays.rowTile m) (Cert.KernelIdeal.Arrays.colLast m), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  refine (Cert.ReferenceIdeal.Read.val_main_v19_eq (F := Ideal) _ _).trans ?_
  refine (Cert.ReferenceIdeal.RefValue.result_eq _ _).trans ?_
  obtain ⟨hP, hQ⟩ := Cert.Proof.Finite.finite_of_pre _ _ (hpre c)
  have hd : Cert.Spec.sqExpand (Cert.KernelIdeal.Arrays.P m c) (Cert.KernelIdeal.Arrays.Q m c)
      = Cert.Spec.sqDiff (Cert.KernelIdeal.Arrays.P m c) (Cert.KernelIdeal.Arrays.Q m c) :=
    funext fun b => funext fun n => funext fun mm => (Cert.Spec.sqDiff_eq_sqExpand _ _ hP hQ b n mm).symm
  exact congrArg (Cert.Spec.result _ _) hd

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
